-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S2x1048576 : Shape := ⟨2, ![2, 1048576]⟩
abbrev S1048576 : Shape := ⟨1, ![1048576]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x2 .f32) (main_arg8 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x2 .f32 := Host.absf main_arg7
  let main_cst_10 : FVec F S_ .f32 := constant S_ .f32 0x7F800000#32
  let main_v30 : FVec F S64x2 .f32 := broadcastInDim S64x2 ![] bcast_S_S64x2 main_cst_10
  let main_v31 : IVec S64x2 1 := cmpf .olt main_v29 main_v30
  let main_c_11 : IVec S_ 1 := constantI S_ 1 1#1
  let main_v32 : IVec S_ 1 := (fun x v => Host.reduce IntOp.andi x v reducesTo_S64x2_S_d0_1 h_S_) main_v31 main_c_11
  let main_v33 : IVec S_ 1 := andi main_v28 main_v32
  fn_part2 (F := F) main_arg8 main_v33

def fn {F : FTy → Type} [FloatOps F] (main_arg0 : FVec F S65536x16 .f32) (main_arg1 : IVec S2x1048576 32) (main_arg2 : FVec F S1048576 .f32) (main_arg3 : FVec F S16x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S65536x16 : Shape := ⟨2, ![65536, 16]⟩
abbrev S2x1048576 : Shape := ⟨2, ![2, 1048576]⟩
abbrev S1048576 : Shape := ⟨1, ![1048576]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1048576 : Shape := ⟨2, ![1, 1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S65536x64 : Shape := ⟨2, ![65536, 64]⟩
abbrev S8192x16 : Shape := ⟨2, ![8192, 16]⟩
abbrev S8192x64 : Shape := ⟨2, ![8192, 64]⟩
abbrev S1114112x64 : Shape := ⟨2, ![1114112, 64]⟩
abbrev S1x64 : Shape := ⟨2, ![1, 64]⟩
abbrev S65536x2 : Shape := ⟨2, ![65536, 2]⟩
abbrev S8192x2 : Shape := ⟨2, ![8192, 2]⟩
abbrev S1x2 : Shape := ⟨2, ![1, 2]⟩

abbrev nBuf : Space → Nat
  | .hbm => 92
  | .vmem => 30
  | .smem => 0
  | _ => 0

abbrev bufTy : (tb : Table) → Fin (tcTables nBuf tb) → BufTy
  | .hbm, ⟨0, _⟩ => ⟨S65536x16, .f32⟩
  | .hbm, ⟨1, _⟩ => ⟨S2x1048576, .i32⟩
  | .hbm, ⟨2, _⟩ => ⟨S1048576, .f32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x1048576, .i32⟩
  | .hbm, ⟨10, _⟩ => ⟨S1048576, .i32⟩
  | .hbm, ⟨11, _⟩ => ⟨S1x1048576, .i32⟩
  | .hbm, ⟨12, _⟩ => ⟨S1048576, .i32⟩
  | .hbm, ⟨13, _⟩ => ⟨S65536, .i32⟩
  | .hbm, ⟨14, _⟩ => ⟨S1114112, .i32⟩
  | .hbm, ⟨15, _⟩ => ⟨S1114112, .i32⟩
  | .hbm, ⟨16, _⟩ => ⟨S_, .f32⟩
  | .hbm, ⟨17, _⟩ => ⟨S65536, .f32⟩
  | .hbm, ⟨18, _⟩ => ⟨S1114112, .f32⟩
  | .hbm, ⟨19, _⟩ => ⟨S_, .f32⟩
  | .hbm, ⟨20, _⟩ => ⟨S65536, .f32⟩
  | .hbm, ⟨21, _⟩ => ⟨S1114112x1, .i32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .i1⟩
  | .hbm, ⟨26, _⟩ => ⟨S65536, .f32⟩
  | .hbm, ⟨27, _⟩ => ⟨S_, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S_, .i32⟩
  | .hbm, ⟨32, _⟩ => ⟨S1114112, .i32⟩
  | .hbm, ⟨33, _⟩ => ⟨S1114112, .i1⟩
  | .hbm, ⟨34, _⟩ => ⟨S_, .i32⟩
  | .hbm, ⟨35, _⟩ => ⟨S1114112, .i32⟩
  | .hbm, ⟨36, _⟩ => ⟨S1114112, .i32⟩
  | .hbm, ⟨37, _⟩ => ⟨S1114112, .i32⟩
  | .hbm, ⟨38, _⟩ => ⟨S1114112x1, .i32⟩
  | .hbm, ⟨39, _⟩ => ⟨S1114112, .f32⟩
  | .hbm, ⟨40, _⟩ => ⟨S1114112, .f32⟩
  | .hbm, ⟨41, _⟩ => ⟨S_, .i32⟩
  | .hbm, ⟨42, _⟩ => ⟨S1114112, .i32⟩
  | .hbm, ⟨43, _⟩ => ⟨S1114112, .i1⟩
  | .hbm, ⟨44, _⟩ => ⟨S_, .i32⟩
  | .hbm, ⟨45, _⟩ => ⟨S1114112, .i32⟩
  | .hbm, ⟨46, _⟩ => ⟨S1114112, .i32⟩
  | .hbm, ⟨47, _⟩ => ⟨S1114112, .i32⟩
  | .hbm, ⟨48, _⟩ => ⟨S1114112x1, .i32⟩
  | .hbm, ⟨49, _⟩ => ⟨S1114112, .f32⟩
  | .hbm, ⟨50, _⟩ => ⟨S1114112, .f32⟩
  | .hbm, ⟨51, _⟩ => ⟨S65536x64, .f32⟩
  | .hbm, ⟨52, _⟩ => ⟨S_, .i32⟩
  | .hbm, ⟨53, _⟩ => ⟨S1114112, .i32⟩
  | .hbm, ⟨54, _⟩ => ⟨S1114112, .i1⟩
  | .hbm, ⟨55, _⟩ => ⟨S_, .i32⟩
  | .hbm, ⟨56, _⟩ => ⟨S1114112, .i32⟩
  | .hbm, ⟨57, _⟩ => ⟨S1114112, .i32⟩
  | .hbm, ⟨58, _⟩ => ⟨S1114112, .i32⟩
  | .hbm, ⟨59, _⟩ => ⟨S1114112x1, .i32⟩
  | .hbm, ⟨60, _⟩ => ⟨S1114112x64, .f32⟩
  | .hbm, ⟨61, _⟩ => ⟨S1114112x1, .f32⟩
  | .hbm, ⟨62, _⟩ => ⟨S1114112x64, .f32⟩
  | .hbm, ⟨63, _⟩ => ⟨S1114112x64, .f32⟩
  | .hbm, ⟨64, _⟩ => ⟨S_, .f32⟩
  | .hbm, ⟨65, _⟩ => ⟨S65536x64, .f32⟩
  | .hbm, ⟨66, _⟩ => ⟨S1114112x1, .i32⟩
  | .hbm, ⟨67, _⟩ => ⟨S65536x64, .f32⟩
  | .hbm, ⟨68, _⟩ => ⟨S1x64, .f32⟩
  | .hbm, ⟨69, _⟩ => ⟨S65536x64, .f32⟩
  | .hbm, ⟨70, _⟩ => ⟨S65536x64, .f32⟩
  | .hbm, ⟨71, _⟩ => ⟨S_, .i32⟩
  | .hbm, ⟨72, _⟩ => ⟨S1114112, .i32⟩
  | .hbm, ⟨73, _⟩ => ⟨S1114112, .i1⟩
  | .hbm, ⟨74, _⟩ => ⟨S_, .i32⟩
  | .hbm, ⟨75, _⟩ => ⟨S1114112, .i32⟩
  | .hbm, ⟨76, _⟩ => ⟨S1114112, .i32⟩
  | .hbm, ⟨77, _⟩ => ⟨S1114112, .i32⟩
  | .hbm, ⟨78, _⟩ => ⟨S1114112x1, .i32⟩
  | .hbm, ⟨79, _⟩ => ⟨S1114112x64, .f32⟩
  | .hbm, ⟨80, _⟩ => ⟨S1114112x1, .f32⟩
  | .hbm, ⟨81, _⟩ => ⟨S1114112x64, .f32⟩
  | .hbm, ⟨82, _⟩ => ⟨S1114112x64, .f32⟩
  | .hbm, ⟨83, _⟩ => ⟨S_, .f32⟩
  | .hbm, ⟨84, _⟩ => ⟨S65536x64, .f32⟩
  | .hbm, ⟨85, _⟩ => ⟨S1114112x1, .i32⟩
  | .hbm, ⟨86, _⟩ => ⟨S65536x64, .f32⟩
  | .hbm, ⟨87, _⟩ => ⟨S1x64, .f32⟩
  | .hbm, ⟨88, _⟩ => ⟨S65536x64, .f32⟩
  | .hbm, ⟨89, _⟩ => ⟨S65536x2, .f32⟩
  | .hbm, ⟨90, _⟩ => ⟨S1x2, .f32⟩
  | .hbm, ⟨91, _⟩ => ⟨S65536x2, .f32⟩
  | .local _ .vmem, ⟨0, _⟩ => ⟨S8192x16, .f32⟩
  | .local _ .vmem, ⟨1, _⟩ => ⟨S8192x16, .f32⟩
  | .local _ .vmem, ⟨2, _⟩ => ⟨S16x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S1x64, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S8192x64, .f32⟩
  | .local _ .vmem, ⟨12, _⟩ => ⟨S64x64, .f32⟩
  | .local _ .vmem, ⟨13, _⟩ => ⟨S8192x64, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S1x64, .f32⟩
  | .local _ .vmem, ⟨18, _⟩ => ⟨S8192x64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S64x2, .f32⟩
  | .local _ .vmem, ⟨23, _⟩ => ⟨S8192x2, .f32⟩
  | .local _ .vmem, ⟨24, _⟩ => ⟨S8192x2, .f32⟩
  | .local _ .vmem, ⟨25, _⟩ => ⟨S8192x2, .f32⟩
  | .local _ .vmem, ⟨26, _⟩ => ⟨S8192x2, .f32⟩
  | .local _ .vmem, ⟨27, _⟩ => ⟨S1x2, .f32⟩
  | .local _ .vmem, ⟨28, _⟩ => ⟨S8192x2, .f32⟩
  | .local _ .vmem, ⟨29, _⟩ => ⟨S8192x2, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S8192x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8192x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  inb_S8192x16_S8192x16_0_0 : ∀ a, (![0, 0] : Fin 2 → Nat) a + S8192x16.size a ≤ S8192x16.size a
  h_S8192x16 : 0 < S8192x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S8192x64_S8192x64_0_0 : ∀ a, (![0, 0] : Fin 2 → Nat) a + S8192x64.size a ≤ S8192x64.size a
  h_S8192x64 : 0 < S8192x64.numel
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  shapeCasts_S64_S1x64 : S64.ShapeCasts S1x64
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S8192x2_S8192x2_0_0 : ∀ a, (![0, 0] : Fin 2 → Nat) a + S8192x2.size a ≤ S8192x2.size a
  h_S8192x2 : 0 < S8192x2.numel
  shapeCasts_S2_S1x2 : S2.ShapeCasts S1x2
  shapeCasts_S8192x2_S8192x2 : S8192x2.ShapeCasts S8192x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S8192x16_S16x64_S8192x64_1_0_0_1_n_n_wf : DotDims.WF S8192x16 S16x64 S8192x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S8192x64_S64x64_S8192x64_1_0_0_1_n_n_wf : DotDims.WF S8192x64 S64x64 S8192x64 [1] [0] [0] [1] [] []
  dot_S8192x64_S64x2_S8192x2_1_0_0_1_n_n_wf : DotDims.WF S8192x64 S64x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S65536x16.size a
  hwx0_0 : ∀ i : grid0.Coords, EltTy.bits .f32 = 32 ∨ (Rect.block (s := S65536x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .f32 = 32 ∨ (Rect.block (s := S65536x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S65536x64.size a
  hwx1_0 : ∀ i : grid1.Coords, EltTy.bits .f32 = 32 ∨ (Rect.block (s := S65536x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S65536x64.size a
  hwx1_2 : ∀ i : grid1.Coords, EltTy.bits .f32 = 32 ∨ (Rect.block (s := S65536x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S65536x64.size a
  hwx2_0 : ∀ i : grid2.Coords, EltTy.bits .f32 = 32 ∨ (Rect.block (s := S65536x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S65536x64.size a
  hwx2_2 : ∀ i : grid2.Coords, EltTy.bits .f32 = 32 ∨ (Rect.block (s := S65536x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S65536x64.size a
  hwx3_0 : ∀ i : grid3.Coords, EltTy.bits .f32 = 32 ∨ (Rect.block (s := S65536x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S65536x64.size a
  hwx3_2 : ∀ i : grid3.Coords, EltTy.bits .f32 = 32 ∨ (Rect.block (s := S65536x64) S8192x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S65536x64.size a
  hwx4_0 : ∀ i : grid4.Coords, EltTy.bits .f32 = 32 ∨ (Rect.block (s := S65536x64) S8192x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x2.size a ≤ S65536x2.size a
  hwx4_2 : ∀ i : grid4.Coords, EltTy.bits .f32 = 32 ∨ (Rect.block (s := S65536x2) S8192x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x2.size a ≤ S65536x2.size a
  hwx5_0 : ∀ i : grid5.Coords, EltTy.bits .f32 = 32 ∨ (Rect.block (s := S65536x2) S8192x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x2.size a ≤ S65536x2.size a
  hwx5_2 : ∀ i : grid5.Coords, EltTy.bits .f32 = 32 ∨ (Rect.block (s := S65536x2) S8192x2.size (cc5_transform_2 i) (hinb5_2 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S8192x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S8192x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S8192x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S8192x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S65536x16 : Shape := ⟨2, ![65536, 16]⟩
abbrev S2x1048576 : Shape := ⟨2, ![2, 1048576]⟩
abbrev S1048576 : Shape := ⟨1, ![1048576]⟩
abbrev S16x64 : Shape := ⟨2, ![16, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1048576 : Shape := ⟨2, ![1, 1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S65536x64 : Shape := ⟨2, ![65536, 64]⟩
abbrev S1114112x64 : Shape := ⟨2, ![1114112, 64]⟩
abbrev S1x64 : Shape := ⟨2, ![1, 64]⟩
abbrev S65536x2 : Shape := ⟨2, ![65536, 2]⟩
abbrev S1x2 : Shape := ⟨2, ![1, 2]⟩

abbrev nBuf : Space → Nat
  | .hbm => 139
  | .vmem => 0
  | .smem => 0
  | _ => 0

abbrev hbmTy0_0 (i : Nat) : BufTy := match i % 128 with
  | 0 => ⟨S65536x16, .f32⟩
  | 1 => ⟨S2x1048576, .i32⟩
  | 2 => ⟨S1048576, .f32⟩
  | 3 => ⟨S16x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S1x1048576, .i32⟩
  | 10 => ⟨S1048576, .i32⟩
  | 11 => ⟨S1x1048576, .i32⟩
  | 12 => ⟨S1048576, .i32⟩
  | 13 => ⟨S65536, .i32⟩
  | 14 => ⟨S1114112, .i32⟩
  | 15 => ⟨S1114112, .i32⟩
  | 16 => ⟨S_, .f32⟩
  | 17 => ⟨S65536, .f32⟩
  | 18 => ⟨S1114112, .f32⟩
  | 19 => ⟨S_, .f32⟩
  | 20 => ⟨S65536, .f32⟩
  | 21 => ⟨S1114112x1, .i32⟩
  | 22 => ⟨S65536, .f32⟩
  | 23 => ⟨S_, .f32⟩
  | 24 => ⟨S65536, .f32⟩
  | 25 => ⟨S65536, .i1⟩
  | 26 => ⟨S65536, .f32⟩
  | 27 => ⟨S_, .f32⟩
  | 28 => ⟨S_, .f32⟩
  | 29 => ⟨S65536, .f32⟩
  | 30 => ⟨S65536, .f32⟩
  | 31 => ⟨S_, .i32⟩
  | 32 => ⟨S1114112, .i32⟩
  | 33 => ⟨S1114112, .i1⟩
  | 34 => ⟨S_, .i32⟩
  | 35 => ⟨S1114112, .i32⟩
  | 36 => ⟨S1114112, .i32⟩
  | 37 => ⟨S1114112, .i32⟩
  | 38 => ⟨S1114112x1, .i32⟩
  | 39 => ⟨S1114112, .f32⟩
  | 40 => ⟨S1114112, .f32⟩
  | 41 => ⟨S_, .i32⟩
  | 42 => ⟨S1114112, .i32⟩
  | 43 => ⟨S1114112, .i1⟩
  | 44 => ⟨S_, .i32⟩
  | 45 => ⟨S1114112, .i32⟩
  | 46 => ⟨S1114112, .i32⟩
  | 47 => ⟨S1114112, .i32⟩
  | 48 => ⟨S1114112x1, .i32⟩
  | 49 => ⟨S1114112, .f32⟩
  | 50 => ⟨S1114112, .f32⟩
  | 51 => ⟨S65536x64, .f32⟩
  | 52 => ⟨S_, .i32⟩
  | 53 => ⟨S1114112, .i32⟩
  | 54 => ⟨S1114112, .i1⟩
  | 55 => ⟨S_, .i32⟩
  | 56 => ⟨S1114112, .i32⟩
  | 57 => ⟨S1114112, .i32⟩
  | 58 => ⟨S1114112, .i32⟩
  | 59 => ⟨S1114112x1, .i32⟩
  | 60 => ⟨S1114112x64, .f32⟩
  | 61 => ⟨S1114112x1, .f32⟩
  | 62 => ⟨S1114112x64, .f32⟩
  | 63 => ⟨S1114112x64, .f32⟩
  | 64 => ⟨S_, .f32⟩
  | 65 => ⟨S65536x64, .f32⟩
  | 66 => ⟨S1114112x1, .i32⟩
  | 67 => ⟨S65536x64, .f32⟩
  | 68 => ⟨S1x64, .f32⟩
  | 69 => ⟨S65536x64, .f32⟩
  | 70 => ⟨S65536x64, .f32⟩
  | 71 => ⟨S_, .f32⟩
  | 72 => ⟨S65536x64, .f32⟩
  | 73 => ⟨S65536x64, .f32⟩
  | 74 => ⟨S65536, .i32⟩
  | 75 => ⟨S1114112, .i32⟩
  | 76 => ⟨S1114112, .i32⟩
  | 77 => ⟨S_, .f32⟩
  | 78 => ⟨S65536, .f32⟩
  | 79 => ⟨S1114112, .f32⟩
  | 80 => ⟨S_, .f32⟩
  | 81 => ⟨S65536, .f32⟩
  | 82 => ⟨S1114112x1, .i32⟩
  | 83 => ⟨S65536, .f32⟩
  | 84 => ⟨S_, .f32⟩
  | 85 => ⟨S65536, .f32⟩
  | 86 => ⟨S65536, .i1⟩
  | 87 => ⟨S65536, .f32⟩
  | 88 => ⟨S_, .f32⟩
  | 89 => ⟨S_, .f32⟩
  | 90 => ⟨S65536, .f32⟩
  | 91 => ⟨S65536, .f32⟩
  | 92 => ⟨S_, .i32⟩
  | 93 => ⟨S1114112, .i32⟩
  | 94 => ⟨S1114112, .i1⟩
  | 95 => ⟨S_, .i32⟩
  | 96 => ⟨S1114112, .i32⟩
  | 97 => ⟨S1114112, .i32⟩
  | 98 => ⟨S1114112, .i32⟩
  | 99 => ⟨S1114112x1, .i32⟩
  | 100 => ⟨S1114112, .f32⟩
  | 101 => ⟨S1114112, .f32⟩
  | 102 => ⟨S_, .i32⟩
  | 103 => ⟨S1114112, .i32⟩
  | 104 => ⟨S1114112, .i1⟩
  | 105 => ⟨S_, .i32⟩
  | 106 => ⟨S1114112, .i32⟩
  | 107 => ⟨S1114112, .i32⟩
  | 108 => ⟨S1114112, .i32⟩
  | 109 => ⟨S1114112x1, .i32⟩
  | 110 => ⟨S1114112, .f32⟩
  | 111 => ⟨S1114112, .f32⟩
  | 112 => ⟨S65536x64, .f32⟩
  | 113 => ⟨S_, .i32⟩
  | 114 => ⟨S1114112, .i32⟩
  | 115 => ⟨S1114112, .i1⟩
  | 116 => ⟨S_, .i32⟩
  | 117 => ⟨S1114112, .i32⟩
  | 118 => ⟨S1114112, .i32⟩
  | 119 => ⟨S1114112, .i32⟩
  | 120 => ⟨S1114112x1, .i32⟩
  | 121 => ⟨S1114112x64, .f32⟩
  | 122 => ⟨S1114112x1, .f32⟩
  | 123 => ⟨S1114112x64, .f32⟩
  | 124 => ⟨S1114112x64, .f32⟩
  | 125 => ⟨S_, .f32⟩
  | 126 => ⟨S65536x64, .f32⟩
  | 127 => ⟨S1114112x1, .i32⟩
  | _ => ⟨S65536x16, .f32⟩

abbrev hbmTy0_1 (i : Nat) : BufTy := match i % 128 with
  | 0 => ⟨S65536x64, .f32⟩
  | 1 => ⟨S1x64, .f32⟩
  | 2 => ⟨S65536x64, .f32⟩
  | 3 => ⟨S65536x64, .f32⟩
  | 4 => ⟨S_, .f32⟩
  | 5 => ⟨S65536x64, .f32⟩
  | 6 => ⟨S65536x64, .f32⟩
  | 7 => ⟨S65536x2, .f32⟩
  | 8 => ⟨S1x2, .f32⟩
  | 9 => ⟨S65536x2, .f32⟩
  | 10 => ⟨S65536x2, .f32⟩
  | _ => ⟨S65536x16, .f32⟩

abbrev hbmTy (i : Nat) : BufTy := match i / 128 with
  | 0 => hbmTy0_0 i
  | 1 => hbmTy0_1 i
  | _ => ⟨S65536x16, .f32⟩

abbrev bufTy : (tb : Table) → Fin (tcTables nBuf tb) → BufTy
  | .hbm, ⟨i, _⟩ => hbmTy i
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x16_S16x64_S65536x64_1_0_0_1_n_n_wf : DotDims.WF S65536x16 S16x64 S65536x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  dot_S65536x64_S64x64_S65536x64_1_0_0_1_n_n_wf : DotDims.WF S65536x64 S64x64 S65536x64 [1] [0] [0] [1] [] []
  dot_S65536x64_S64x2_S65536x2_1_0_0_1_n_n_wf : DotDims.WF S65536x64 S64x2 S65536x2 [1] [0] [0] [1] [] []

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x16_S16x64_S65536x64_1_0_0_1_n_n : DotDims S65536x16 S16x64 S65536x64 where
  lhsContracting := [1]
  rhsContracting := [0]
  lhsNonContracting := [0]
  rhsNonContracting := [1]
  lhsBatch := []
  rhsBatch := []
  wf := dot_S65536x16_S16x64_S65536x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x2_S65536x2_1_0_0_1_n_n : DotDims S65536x64 S64x2 S65536x2 where
  lhsContracting := [1]
  rhsContracting := [0]
  lhsNonContracting := [0]
  rhsNonContracting := [1]
  lhsBatch := []
  rhsBatch := []
  wf := dot_S65536x64_S64x2_S65536x2_1_0_0_1_n_n_wf

class Facts : Prop extends Facts₀ where

variable [Facts]
-- ==== Proof.KernelRun.lean ====
/-
  The idealized kernel's run with its result named. Its @main is six row-tiled regions among stretches of host operations;
  the run ends with every unscoped buffer at the last boundary's contents, so the result buffer holds what the fold of the
  segments leaves there and the nine arguments are as launched.
-/
import proofs.«119593_j82308753260856_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_out : θ_run defs (onTc (τ := τ) (main (F := F))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Hand

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowProduct.lean ====
/-
  Rows times a weight matrix, `Σ_k X(r,k)·W(k,j)`, over the extended reals, as ONE function of the two whole arrays, and
  its two spellings. The host's plain `dot_general` IS that function. A row-tiled kernel multiplies a block of rows,
  both operands first rounded to bf16 (the identity on the extended reals), into a zero accumulator: entry `(p, j)` of
  the block's product is the function's entry at the block's row `p`, so a block that holds the rows `o + p` of `X` yields
  the rows `o + p` of the whole product. No finiteness is used anywhere: a sum of products is the same sum on both sides.
-/
import Idealize.ShloMosaic.PureOps.Ideal.Laws
import Idealize.ShloMosaic.Lib.ValueIdx
import proofs.«119593_j82308753260856_1_alg».proof.Proof.LibPlainDot

namespace Idealize.ShloMosaic.RowProduct

open Idealize.ShloMosaic.ValueIdx

variable {A B K M : Nat}

/-- The product of the rows of `X` with `W`: entry `(r, j)` is `Σ_k X(r,k)·W(k,j)`. -/
noncomputable def prod (X : FVec Ideal ⟨2, ![A, K]⟩ .f32) (W : FVec Ideal ⟨2, ![K, M]⟩ .f32) : FVec Ideal ⟨2, ![A, M]⟩ .f32 :=
  fun i => ∑ k : Fin K, X (ix2 ⟨(i 0).val, idx2_lt0 i⟩ k) * W (ix2 k ⟨(i 1).val, idx2_lt1 i⟩)

theorem prod_ix2 (X : FVec Ideal ⟨2, ![A, K]⟩ .f32) (W : FVec Ideal ⟨2, ![K, M]⟩ .f32) (r : Fin A) (j : Fin M) :
    prod X W (ix2 r j) = ∑ k : Fin K, X (ix2 r k) * W (ix2 k j) := rfl

/-- The host's plain `dot_general` is that product, as whole arrays. -/
theorem host_eq (prec : Option ContractPrecision) (sched : HostSchedule) (X : FVec Ideal ⟨2, ![A, K]⟩ .f32)
    (W : FVec Ideal ⟨2, ![K, M]⟩ .f32) : FloatOps.dotGeneral (DotDims.plain A K M) prec sched X W = prod X W := by
  funext i
  obtain ⟨r, j, rfl⟩ : ∃ (r : Fin A) (j : Fin M), i = ix2 r j := ⟨i 0, i 1, eq_ix2 i⟩
  exact PlainDot.dotGeneral_apply_ix2 prec sched X W r j

/-- A kernel body's product of a block of rows, both operands rounded to bf16, into a zero accumulator, at `(p, j)`. -/
theorem body_apply (prec : Option ContractPrecision) (x0 : FVec Ideal ⟨2, ![B, K]⟩ .f32) (x1 : FVec Ideal ⟨2, ![K, M]⟩ .f32)
    (h0 h1 : FTy.bf16.bits < FTy.f32.bits) (p : Fin B) (j : Fin M) :
    FloatOps.matmul (DotDims.plain B K M) prec (truncf .bf16 x0 h0) (truncf .bf16 x1 h1)
        (constant ⟨2, ![B, M]⟩ .f32 0x00000000#32) (ix2 p j)
      = ∑ k : Fin K, x0 (ix2 p k) * x1 (ix2 k j) :=
  PlainDot.matmul_apply_ix2 prec (truncf .bf16 x0 h0) (truncf .bf16 x1 h1) p j

/-- A block holding the rows `o + p` of `X`, multiplied by the whole `W`, yields the rows `o + p` of the product. -/
theorem block_rows (X : FVec Ideal ⟨2, ![A, K]⟩ .f32) (W : FVec Ideal ⟨2, ![K, M]⟩ .f32)
    (x0 : FVec Ideal ⟨2, ![B, K]⟩ .f32) (x1 : FVec Ideal ⟨2, ![K, M]⟩ .f32) (o : Nat) (p : Fin B) (j : Fin M)
    (hr : o + p.val < A) (h0 : ∀ k : Fin K, x0 (ix2 p k) = X (ix2 ⟨o + p.val, hr⟩ k))
    (h1 : ∀ k : Fin K, x1 (ix2 k j) = W (ix2 k j)) :
    (∑ k : Fin K, x0 (ix2 p k) * x1 (ix2 k j)) = prod X W (ix2 ⟨o + p.val, hr⟩ j) := by
  rw [prod_ix2]
  exact Finset.sum_congr rfl fun k _ => by rw [h0 k, h1 k]

end Idealize.ShloMosaic.RowProduct
-- ==== Proof.RegionMM0.lean ====
/-
  Region 0 of the kernel multiplies row blocks of one array by a whole weight matrix. Block t of the left operand is
  rows 8192·t … 8192·t + 8191 of its array, the weight block is the whole matrix at every point, and entry (p, j) of the
  block's product is Σ_k X(8192·t + p, k)·W(k, j): the block of the one whole product that the point writes back. The eight
  blocks tile the 65536 rows, so the output array ends holding the whole product.
-/
import proofs.«119593_j82308753260856_1_alg».proof.Proof.Gen.KernelIdeal.Frame
import proofs.«119593_j82308753260856_1_alg».proof.Proof.LibRowProduct
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The body's product at entry (p, q) of its block. -/
theorem pay0_apply (x0 : Vec Ideal S8192x16 .f32) (x1 : Vec Ideal S16x64 .f32) (p : Fin 8192) (q : Fin 64) :
    k0_pay1 x0 x1 (ix2 p q) = ∑ k : Fin 16, x0 (ix2 p k) * x1 (ix2 k q) := by
  unfold k0_pay1
  exact RowProduct.body_apply none x0 x1 _ _ p q

/-- The block indices over the grid: the row blocks follow the point, the weight block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the region's two arrays as it finds them. -/
abbrev G0 (c : Dev nD) : FVec Ideal ⟨2, ![65536, 64]⟩ .f32 :=
  RowProduct.prod (A := 65536) (K := 16) (M := 64) (V c (Pipeline.arrRef spec0 0)) (V c (Pipeline.arrRef spec0 1))

/-- What point t writes back is block t of the whole product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S8192x16) hz0, View.ld_unit_zero (S := S16x64) hz0]
  obtain ⟨e0, e1, e2, e3, e4, e5⟩ := idx_facts0 t
  have ht : t.val < 8 := t.isLt
  funext j
  have hp : (j 0).val < 8192 := (j 0).isLt
  have hq : (j 1).val < 64 := (j 1).isLt
  have hr : t.val * 8192 + (j 0).val < 65536 := by omega
  show k0_pay1 (iblk0 V c 0 t) (iblk0 V c 1 t) j = G0 V c (((cfg0.win 2).blk t).view.emb j)
  have ej : j = ix2 (⟨(j 0).val, hp⟩ : Fin 8192) (⟨(j 1).val, hq⟩ : Fin 64) :=
    funext fun a => Fin.ext (by match a with | ⟨0, _⟩ => rfl | ⟨1, _⟩ => rfl)
  have ee : ((cfg0.win 2).blk t).view.emb j = ix2 (⟨t.val * 8192 + (j 0).val, hr⟩ : Fin 65536) (⟨(j 1).val, hq⟩ : Fin 64) := by
    funext a; apply Fin.ext
    match a with
    | ⟨0, _⟩ => show win0_2.index t (0 : Fin 2) * 8192 + 1 * (j 0).val = t.val * 8192 + (j 0).val; omega
    | ⟨1, _⟩ => show win0_2.index t (1 : Fin 2) * 64 + 1 * (j 1).val = (j 1).val; omega
  rw [ee]
  refine (congrArg (k0_pay1 (iblk0 V c 0 t) (iblk0 V c 1 t)) ej).trans ?_
  refine (pay0_apply _ _ _ _).trans ?_
  refine RowProduct.block_rows (A := 65536) _ _ _ _ (t.val * 8192) ⟨(j 0).val, hp⟩ ⟨(j 1).val, hq⟩ hr (fun k => ?_) (fun k => ?_)
  · show V c (Pipeline.arrRef spec0 0) (((cfg0.win 0).blk t).view.emb (ix2 (⟨(j 0).val, hp⟩ : Fin 8192) k)) = _
    refine congrArg (V c (Pipeline.arrRef spec0 0)) ?_
    funext a; apply Fin.ext
    match a with
    | ⟨0, _⟩ => show win0_0.index t (0 : Fin 2) * 8192 + 1 * (j 0).val = t.val * 8192 + (j 0).val; omega
    | ⟨1, _⟩ => show win0_0.index t (1 : Fin 2) * 16 + 1 * k.val = k.val; omega
  · show V c (Pipeline.arrRef spec0 1) (((cfg0.win 1).blk t).view.emb (ix2 k (⟨(j 1).val, hq⟩ : Fin 64))) = _
    refine congrArg (V c (Pipeline.arrRef spec0 1)) ?_
    funext a; apply Fin.ext
    match a with
    | ⟨0, _⟩ => show win0_1.index t (0 : Fin 2) * 16 + 1 * k.val = k.val; omega
    | ⟨1, _⟩ => show win0_1.index t (1 : Fin 2) * 64 + 1 * (j 1).val = (j 1).val; omega

/-- An index of the output array is in point t's block iff each coordinate is in the block's range on its axis. -/
theorem mem_blk0 (t : Fin cfg0.N) (i : S65536x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v32).slice (win0_2.rect t)).set ↔ _
  rw [View.set_slice_whole, Rect.mem_set_unit]
  exact Iff.rfl

/-- The output array after the region: the whole product (row r lies in the block of point r / 8192). -/
theorem final0 (c : Dev nD) : (dat0 V c).arrAt 2 cfg0.N = G0 V c :=
  (dat0 V c).arrAt_eq_of_cover 2 (G0 V c) (fun t _ => flushed0_eq V c t) fun i => by
    have h0 : (i 0).val < 65536 := (i 0).isLt
    have h1 : (i 1).val < 64 := (i 1).isLt
    obtain ⟨t, ht⟩ : ∃ t : Fin cfg0.N, t.val = (i 0).val / 8192 :=
      ⟨⟨(i 0).val / 8192, by rw [show cfg0.N = 8 from N_0]; omega⟩, rfl⟩
    obtain ⟨e0, e1, e2, e3, e4, e5⟩ := idx_facts0 t
    refine ⟨t, flush0_2 t, ?_⟩
    rw [mem_blk0]
    intro a
    match a with
    | ⟨0, _⟩ =>
      show win0_2.index t (0 : Fin 2) * 8192 ≤ (i 0).val ∧ (i 0).val < win0_2.index t (0 : Fin 2) * 8192 + 8192
      omega
    | ⟨1, _⟩ =>
      show win0_2.index t (1 : Fin 2) * 64 ≤ (i 1).val ∧ (i 1).val < win0_2.index t (1 : Fin 2) * 64 + 64
      omega

end Cert.KernelIdeal.Hand

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«119593_j82308753260856_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibBiasRelu.lean ====
/-
  A bias row added to every row of a matrix and the sum rectified, `max (Z(r,j) + b(j)) 0`, over the extended reals, as ONE
  function and in its two spellings. A kernel body holds the bias as a one-row matrix `[1, M]` and repeats it down the
  rows of its block, then takes the maximum with a splat zero. The host lifts the bias vector `[M]` to `[1, M]` and then to
  `[A, M]`, and takes the maximum with a rank-0 zero broadcast to `[A, M]`. The zero is the same f32 word on both sides and is
  never evaluated. Entry `(r, j)` reads row `r` of `Z` only, so a block of rows of `Z` yields the same rows of the result.
-/
import Idealize.ShloMosaic.PureOps.Ideal.Laws
import Idealize.ShloMosaic.Lib.ValueIdx
import Idealize.ShloMosaic.Lib.ValueLayout
import Idealize.ShloMosaic.Lib.Pipeline.Value
import proofs.«119593_j82308753260856_1_alg».proof.Proof.LibAffine

namespace Idealize.ShloMosaic.BiasRelu

open Idealize.ShloMosaic.ValueIdx

variable {A B M : Nat}

/-- `max (Z(r,j) + b(0,j)) 0`, the bias a one-row matrix, the zero kept as its f32 word. -/
noncomputable def biasRelu (Z : FVec Ideal ⟨2, ![A, M]⟩ .f32) (b : FVec Ideal ⟨2, ![1, M]⟩ .f32) : FVec Ideal ⟨2, ![A, M]⟩ .f32 :=
  fun i => max (Z i + b (ix2 (0 : Fin 1) ⟨(i 1).val, idx2_lt1 i⟩)) (Ideal.ofBits .f32 0x00000000#32)

theorem biasRelu_ix2 (Z : FVec Ideal ⟨2, ![A, M]⟩ .f32) (b : FVec Ideal ⟨2, ![1, M]⟩ .f32) (r : Fin A) (j : Fin M) :
    biasRelu Z b (ix2 r j) = max (Z (ix2 r j) + b (ix2 (0 : Fin 1) j)) (Ideal.ofBits .f32 0x00000000#32) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    maximumf (addf (shapeCast ⟨2, ![B, M]⟩ x0 h0) (broadcastTo ⟨2, ![B, M]⟩ (shapeCast ⟨2, ![1, M]⟩ x1 h1) hb))
        (broadcast ⟨2, ![B, M]⟩ (FloatOps.ofBits (F := Ideal) .f32 0x00000000#32)) (ix2 p j)
      = max (x0 (ix2 p j) + x1 (ix2 (0 : Fin 1) j)) (Ideal.ofBits .f32 0x00000000#32) := by
  rw [shapeCast_self, shapeCast_self]
  refine (maximumf_apply _ _ _).trans ?_
  refine congrArg₂ max ?_ rfl
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    max (x0 (ix2 p j) + x1 (ix2 (0 : Fin 1) j)) (Ideal.ofBits .f32 0x00000000#32) = biasRelu Z b (ix2 ⟨o + p.val, hr⟩ j) := by
  rw [biasRelu_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) (r : Fin A) (j : Fin M) :
    maximumf (addf Z (broadcastInDim ⟨2, ![A, M]⟩ ![0, 1] h2 (broadcastInDim ⟨2, ![1, M]⟩ ![1] h1 b)))
        (broadcastInDim ⟨2, ![A, M]⟩ ![] hz (constant (F := Ideal) ⟨0, ![]⟩ .f32 0x00000000#32)) (ix2 r j)
      = max (Z (ix2 r j) + b (ix1 j)) (Ideal.ofBits .f32 0x00000000#32) := by
  refine (maximumf_apply _ _ _).trans ?_
  refine congrArg₂ max ?_ ?_
  · refine (addf_apply _ _ _).trans ?_
    exact congrArg (Z (ix2 r j) + ·) (Affine.bias_rows_apply b h1 h2 r j)
  · exact broadcastInDim_apply _ hz _ (ix2 r j) (fun a => a.elim0) (fun a => a.elim0)

/-- The two spellings agree as whole arrays: the kernel's bias row is the host's bias vector recast to `[1, M]`. -/
theorem biasRelu_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) :
    biasRelu Z (shapeCast ⟨2, ![1, M]⟩ b hc)
      = maximumf (addf Z (broadcastInDim ⟨2, ![A, M]⟩ ![0, 1] h2 (broadcastInDim ⟨2, ![1, M]⟩ ![1] h1 b)))
          (broadcastInDim ⟨2, ![A, M]⟩ ![] hz (constant (F := Ideal) ⟨0, ![]⟩ .f32 0x00000000#32)) := by
  funext i
  obtain ⟨r, j, rfl⟩ : ∃ (r : Fin A) (j : Fin M), i = ix2 r j := ⟨i 0, i 1, eq_ix2 i⟩
  rw [host_apply, biasRelu_ix2, shapeCast_a_1a_apply]

end Idealize.ShloMosaic.BiasRelu
-- ==== Proof.RegionBias1.lean ====
/-
  Region 1 of the kernel adds a bias row to every row of an array and takes the maximum with zero, one block of 8192 rows per
  grid point. Block t of the array is rows 8192·t … 8192·t + 8191, the one-row bias block is the whole bias at every point,
  and entry (p, j) of what the body stores reads row 8192·t + p only: the block of the one whole-array result that the
  point writes back. The eight blocks tile the 65536 rows, so the output array ends holding that whole result.
-/
import proofs.«119593_j82308753260856_1_alg».proof.Proof.Gen.KernelIdeal.Frame
import proofs.«119593_j82308753260856_1_alg».proof.Proof.LibBiasRelu
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- What the body stores at entry (p, q) of its block. -/
theorem pay1_apply (x0 : Vec Ideal S8192x64 .f32) (x1 : Vec Ideal S1x64 .f32) (p : Fin 8192) (q : Fin 64) :
    k1_pay1 x0 x1 (ix2 p q) = max (x0 (ix2 p q) + x1 (ix2 (0 : Fin 1) q)) (Ideal.ofBits .f32 0x00000000#32) := by
  unfold k1_pay1
  exact BiasRelu.body_apply x0 x1 _ _ _ p q

/-- The block indices over the grid: the row blocks follow the point, the bias block stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole-array result of the region's two arrays as it finds them. -/
abbrev G1 (c : Dev nD) : FVec Ideal ⟨2, ![65536, 64]⟩ .f32 :=
  BiasRelu.biasRelu (A := 65536) (M := 64) (V c (Pipeline.arrRef spec1 0)) (V c (Pipeline.arrRef spec1 1))

/-- What point t writes back is block t of the whole-array result. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz1]
  simp only [View.ld_unit_zero (S := S8192x64) hz1, View.ld_unit_zero (S := S1x64) hz1]
  obtain ⟨e0, e1, e2, e3, e4, e5⟩ := idx_facts1 t
  have ht : t.val < 8 := t.isLt
  funext j
  have hp : (j 0).val < 8192 := (j 0).isLt
  have hq : (j 1).val < 64 := (j 1).isLt
  have hr : t.val * 8192 + (j 0).val < 65536 := by omega
  show k1_pay1 (iblk1 V c 0 t) (iblk1 V c 1 t) j = G1 V c (((cfg1.win 2).blk t).view.emb j)
  have ej : j = ix2 (⟨(j 0).val, hp⟩ : Fin 8192) (⟨(j 1).val, hq⟩ : Fin 64) :=
    funext fun a => Fin.ext (by match a with | ⟨0, _⟩ => rfl | ⟨1, _⟩ => rfl)
  have ee : ((cfg1.win 2).blk t).view.emb j = ix2 (⟨t.val * 8192 + (j 0).val, hr⟩ : Fin 65536) (⟨(j 1).val, hq⟩ : Fin 64) := by
    funext a; apply Fin.ext
    match a with
    | ⟨0, _⟩ => show win1_2.index t (0 : Fin 2) * 8192 + 1 * (j 0).val = t.val * 8192 + (j 0).val; omega
    | ⟨1, _⟩ => show win1_2.index t (1 : Fin 2) * 64 + 1 * (j 1).val = (j 1).val; omega
  rw [ee]
  refine (congrArg (k1_pay1 (iblk1 V c 0 t) (iblk1 V c 1 t)) ej).trans ?_
  refine (pay1_apply _ _ _ _).trans ?_
  refine BiasRelu.block_rows (A := 65536) _ _ _ _ (t.val * 8192) ⟨(j 0).val, hp⟩ ⟨(j 1).val, hq⟩ hr ?_ ?_
  · show V c (Pipeline.arrRef spec1 0) (((cfg1.win 0).blk t).view.emb (ix2 (⟨(j 0).val, hp⟩ : Fin 8192) (⟨(j 1).val, hq⟩ : Fin 64))) = _
    refine congrArg (V c (Pipeline.arrRef spec1 0)) ?_
    funext a; apply Fin.ext
    match a with
    | ⟨0, _⟩ => show win1_0.index t (0 : Fin 2) * 8192 + 1 * (j 0).val = t.val * 8192 + (j 0).val; omega
    | ⟨1, _⟩ => show win1_0.index t (1 : Fin 2) * 64 + 1 * (j 1).val = (j 1).val; omega
  · show V c (Pipeline.arrRef spec1 1) (((cfg1.win 1).blk t).view.emb (ix2 (0 : Fin 1) (⟨(j 1).val, hq⟩ : Fin 64))) = _
    refine congrArg (V c (Pipeline.arrRef spec1 1)) ?_
    funext a; apply Fin.ext
    match a with
    | ⟨0, _⟩ => show win1_1.index t (0 : Fin 2) * 1 + 1 * 0 = 0; omega
    | ⟨1, _⟩ => show win1_1.index t (1 : Fin 2) * 64 + 1 * (j 1).val = (j 1).val; omega

/-- An index of the output array is in point t's block iff each coordinate is in the block's range on its axis. -/
theorem mem_blk1 (t : Fin cfg1.N) (i : S65536x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v47).slice (win1_2.rect t)).set ↔ _
  rw [View.set_slice_whole, Rect.mem_set_unit]
  exact Iff.rfl

/-- The output array after the region: the whole-array result (row r lies in the block of point r / 8192). -/
theorem final1 (c : Dev nD) : (dat1 V c).arrAt 2 cfg1.N = G1 V c :=
  (dat1 V c).arrAt_eq_of_cover 2 (G1 V c) (fun t _ => flushed1_eq V c t) fun i => by
    have h0 : (i 0).val < 65536 := (i 0).isLt
    have h1 : (i 1).val < 64 := (i 1).isLt
    obtain ⟨t, ht⟩ : ∃ t : Fin cfg1.N, t.val = (i 0).val / 8192 :=
      ⟨⟨(i 0).val / 8192, by rw [show cfg1.N = 8 from N_1]; omega⟩, rfl⟩
    obtain ⟨e0, e1, e2, e3, e4, e5⟩ := idx_facts1 t
    refine ⟨t, flush1_2 t, ?_⟩
    rw [mem_blk1]
    intro a
    match a with
    | ⟨0, _⟩ =>
      show win1_2.index t (0 : Fin 2) * 8192 ≤ (i 0).val ∧ (i 0).val < win1_2.index t (0 : Fin 2) * 8192 + 8192
      omega
    | ⟨1, _⟩ =>
      show win1_2.index t (1 : Fin 2) * 64 ≤ (i 1).val ∧ (i 1).val < win1_2.index t (1 : Fin 2) * 64 + 64
      omega

end Cert.KernelIdeal.Hand

end
-- ==== Proof.RegionMM2.lean ====
/-
  Region 2 of the kernel multiplies row blocks of one array by a whole weight matrix. Block t of the left operand is
  rows 8192·t … 8192·t + 8191 of its array, the weight block is the whole matrix at every point, and entry (p, j) of the
  block's product is Σ_k X(8192·t + p, k)·W(k, j): the block of the one whole product that the point writes back. The eight
  blocks tile the 65536 rows, so the output array ends holding the whole product.
-/
import proofs.«119593_j82308753260856_1_alg».proof.Proof.Gen.KernelIdeal.Frame
import proofs.«119593_j82308753260856_1_alg».proof.Proof.LibRowProduct
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The body's product at entry (p, q) of its block. -/
theorem pay2_apply (x0 : Vec Ideal S8192x64 .f32) (x1 : Vec Ideal S64x64 .f32) (p : Fin 8192) (q : Fin 64) :
    k2_pay1 x0 x1 (ix2 p q) = ∑ k : Fin 64, x0 (ix2 p k) * x1 (ix2 k q) := by
  unfold k2_pay1
  rw [shapeCast_self]
  exact RowProduct.body_apply none x0 x1 _ _ p q

/-- The block indices over the grid: the row blocks follow the point, the weight block stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole product of the region's two arrays as it finds them. -/
abbrev G2 (c : Dev nD) : FVec Ideal ⟨2, ![65536, 64]⟩ .f32 :=
  RowProduct.prod (A := 65536) (K := 64) (M := 64) (V c (Pipeline.arrRef spec2 0)) (V c (Pipeline.arrRef spec2 1))

/-- What point t writes back is block t of the whole product. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S8192x64) hz2, View.ld_unit_zero (S := S64x64) hz2]
  obtain ⟨e0, e1, e2, e3, e4, e5⟩ := idx_facts2 t
  have ht : t.val < 8 := t.isLt
  funext j
  have hp : (j 0).val < 8192 := (j 0).isLt
  have hq : (j 1).val < 64 := (j 1).isLt
  have hr : t.val * 8192 + (j 0).val < 65536 := by omega
  show k2_pay1 (iblk2 V c 0 t) (iblk2 V c 1 t) j = G2 V c (((cfg2.win 2).blk t).view.emb j)
  have ej : j = ix2 (⟨(j 0).val, hp⟩ : Fin 8192) (⟨(j 1).val, hq⟩ : Fin 64) :=
    funext fun a => Fin.ext (by match a with | ⟨0, _⟩ => rfl | ⟨1, _⟩ => rfl)
  have ee : ((cfg2.win 2).blk t).view.emb j = ix2 (⟨t.val * 8192 + (j 0).val, hr⟩ : Fin 65536) (⟨(j 1).val, hq⟩ : Fin 64) := by
    funext a; apply Fin.ext
    match a with
    | ⟨0, _⟩ => show win2_2.index t (0 : Fin 2) * 8192 + 1 * (j 0).val = t.val * 8192 + (j 0).val; omega
    | ⟨1, _⟩ => show win2_2.index t (1 : Fin 2) * 64 + 1 * (j 1).val = (j 1).val; omega
  rw [ee]
  refine (congrArg (k2_pay1 (iblk2 V c 0 t) (iblk2 V c 1 t)) ej).trans ?_
  refine (pay2_apply _ _ _ _).trans ?_
  refine RowProduct.block_rows (A := 65536) _ _ _ _ (t.val * 8192) ⟨(j 0).val, hp⟩ ⟨(j 1).val, hq⟩ hr (fun k => ?_) (fun k => ?_)
  · show V c (Pipeline.arrRef spec2 0) (((cfg2.win 0).blk t).view.emb (ix2 (⟨(j 0).val, hp⟩ : Fin 8192) k)) = _
    refine congrArg (V c (Pipeline.arrRef spec2 0)) ?_
    funext a; apply Fin.ext
    match a with
    | ⟨0, _⟩ => show win2_0.index t (0 : Fin 2) * 8192 + 1 * (j 0).val = t.val * 8192 + (j 0).val; omega
    | ⟨1, _⟩ => show win2_0.index t (1 : Fin 2) * 64 + 1 * k.val = k.val; omega
  · show V c (Pipeline.arrRef spec2 1) (((cfg2.win 1).blk t).view.emb (ix2 k (⟨(j 1).val, hq⟩ : Fin 64))) = _
    refine congrArg (V c (Pipeline.arrRef spec2 1)) ?_
    funext a; apply Fin.ext
    match a with
    | ⟨0, _⟩ => show win2_1.index t (0 : Fin 2) * 64 + 1 * k.val = k.val; omega
    | ⟨1, _⟩ => show win2_1.index t (1 : Fin 2) * 64 + 1 * (j 1).val = (j 1).val; omega

/-- An index of the output array is in point t's block iff each coordinate is in the block's range on its axis. -/
theorem mem_blk2 (t : Fin cfg2.N) (i : S65536x64.Idx) :
    i ∈ ((cfg2.win 2).blk t).view.set ↔ ∀ a : Fin 2, win2_2.index t a * S8192x64.size a ≤ (i a).val
      ∧ (i a).val < win2_2.index t a * S8192x64.size a + S8192x64.size a := by
  show i ∈ ((View.whole main_v48).slice (win2_2.rect t)).set ↔ _
  rw [View.set_slice_whole, Rect.mem_set_unit]
  exact Iff.rfl

/-- The output array after the region: the whole product (row r lies in the block of point r / 8192). -/
theorem final2 (c : Dev nD) : (dat2 V c).arrAt 2 cfg2.N = G2 V c :=
  (dat2 V c).arrAt_eq_of_cover 2 (G2 V c) (fun t _ => flushed2_eq V c t) fun i => by
    have h0 : (i 0).val < 65536 := (i 0).isLt
    have h1 : (i 1).val < 64 := (i 1).isLt
    obtain ⟨t, ht⟩ : ∃ t : Fin cfg2.N, t.val = (i 0).val / 8192 :=
      ⟨⟨(i 0).val / 8192, by rw [show cfg2.N = 8 from N_2]; omega⟩, rfl⟩
    obtain ⟨e0, e1, e2, e3, e4, e5⟩ := idx_facts2 t
    refine ⟨t, flush2_2 t, ?_⟩
    rw [mem_blk2]
    intro a
    match a with
    | ⟨0, _⟩ =>
      show win2_2.index t (0 : Fin 2) * 8192 ≤ (i 0).val ∧ (i 0).val < win2_2.index t (0 : Fin 2) * 8192 + 8192
      omega
    | ⟨1, _⟩ =>
      show win2_2.index t (1 : Fin 2) * 64 ≤ (i 1).val ∧ (i 1).val < win2_2.index t (1 : Fin 2) * 64 + 64
      omega

end Cert.KernelIdeal.Hand

end
-- ==== Proof.RegionBias3.lean ====
/-
  Region 3 of the kernel adds a bias row to every row of an array and takes the maximum with zero, one block of 8192 rows per
  grid point. Block t of the array is rows 8192·t … 8192·t + 8191, the one-row bias block is the whole bias at every point,
  and entry (p, j) of what the body stores reads row 8192·t + p only: the block of the one whole-array result that the
  point writes back. The eight blocks tile the 65536 rows, so the output array ends holding that whole result.
-/
import proofs.«119593_j82308753260856_1_alg».proof.Proof.Gen.KernelIdeal.Frame
import proofs.«119593_j82308753260856_1_alg».proof.Proof.LibBiasRelu
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- What the body stores at entry (p, q) of its block. -/
theorem pay3_apply (x0 : Vec Ideal S8192x64 .f32) (x1 : Vec Ideal S1x64 .f32) (p : Fin 8192) (q : Fin 64) :
    k3_pay1 x0 x1 (ix2 p q) = max (x0 (ix2 p q) + x1 (ix2 (0 : Fin 1) q)) (Ideal.ofBits .f32 0x00000000#32) := by
  unfold k3_pay1
  exact BiasRelu.body_apply x0 x1 _ _ _ p q

/-- The block indices over the grid: the row blocks follow the point, the bias block stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The whole-array result of the region's two arrays as it finds them. -/
abbrev G3 (c : Dev nD) : FVec Ideal ⟨2, ![65536, 64]⟩ .f32 :=
  BiasRelu.biasRelu (A := 65536) (M := 64) (V c (Pipeline.arrRef spec3 0)) (V c (Pipeline.arrRef spec3 1))

/-- What point t writes back is block t of the whole-array result. -/
theorem flushed3_eq (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz3]
  simp only [View.ld_unit_zero (S := S8192x64) hz3, View.ld_unit_zero (S := S1x64) hz3]
  obtain ⟨e0, e1, e2, e3, e4, e5⟩ := idx_facts3 t
  have ht : t.val < 8 := t.isLt
  funext j
  have hp : (j 0).val < 8192 := (j 0).isLt
  have hq : (j 1).val < 64 := (j 1).isLt
  have hr : t.val * 8192 + (j 0).val < 65536 := by omega
  show k3_pay1 (iblk3 V c 0 t) (iblk3 V c 1 t) j = G3 V c (((cfg3.win 2).blk t).view.emb j)
  have ej : j = ix2 (⟨(j 0).val, hp⟩ : Fin 8192) (⟨(j 1).val, hq⟩ : Fin 64) :=
    funext fun a => Fin.ext (by match a with | ⟨0, _⟩ => rfl | ⟨1, _⟩ => rfl)
  have ee : ((cfg3.win 2).blk t).view.emb j = ix2 (⟨t.val * 8192 + (j 0).val, hr⟩ : Fin 65536) (⟨(j 1).val, hq⟩ : Fin 64) := by
    funext a; apply Fin.ext
    match a with
    | ⟨0, _⟩ => show win3_2.index t (0 : Fin 2) * 8192 + 1 * (j 0).val = t.val * 8192 + (j 0).val; omega
    | ⟨1, _⟩ => show win3_2.index t (1 : Fin 2) * 64 + 1 * (j 1).val = (j 1).val; omega
  rw [ee]
  refine (congrArg (k3_pay1 (iblk3 V c 0 t) (iblk3 V c 1 t)) ej).trans ?_
  refine (pay3_apply _ _ _ _).trans ?_
  refine BiasRelu.block_rows (A := 65536) _ _ _ _ (t.val * 8192) ⟨(j 0).val, hp⟩ ⟨(j 1).val, hq⟩ hr ?_ ?_
  · show V c (Pipeline.arrRef spec3 0) (((cfg3.win 0).blk t).view.emb (ix2 (⟨(j 0).val, hp⟩ : Fin 8192) (⟨(j 1).val, hq⟩ : Fin 64))) = _
    refine congrArg (V c (Pipeline.arrRef spec3 0)) ?_
    funext a; apply Fin.ext
    match a with
    | ⟨0, _⟩ => show win3_0.index t (0 : Fin 2) * 8192 + 1 * (j 0).val = t.val * 8192 + (j 0).val; omega
    | ⟨1, _⟩ => show win3_0.index t (1 : Fin 2) * 64 + 1 * (j 1).val = (j 1).val; omega
  · show V c (Pipeline.arrRef spec3 1) (((cfg3.win 1).blk t).view.emb (ix2 (0 : Fin 1) (⟨(j 1).val, hq⟩ : Fin 64))) = _
    refine congrArg (V c (Pipeline.arrRef spec3 1)) ?_
    funext a; apply Fin.ext
    match a with
    | ⟨0, _⟩ => show win3_1.index t (0 : Fin 2) * 1 + 1 * 0 = 0; omega
    | ⟨1, _⟩ => show win3_1.index t (1 : Fin 2) * 64 + 1 * (j 1).val = (j 1).val; omega

/-- An index of the output array is in point t's block iff each coordinate is in the block's range on its axis. -/
theorem mem_blk3 (t : Fin cfg3.N) (i : S65536x64.Idx) :
    i ∈ ((cfg3.win 2).blk t).view.set ↔ ∀ a : Fin 2, win3_2.index t a * S8192x64.size a ≤ (i a).val
      ∧ (i a).val < win3_2.index t a * S8192x64.size a + S8192x64.size a := by
  show i ∈ ((View.whole main_v63).slice (win3_2.rect t)).set ↔ _
  rw [View.set_slice_whole, Rect.mem_set_unit]
  exact Iff.rfl

/-- The output array after the region: the whole-array result (row r lies in the block of point r / 8192). -/
theorem final3 (c : Dev nD) : (dat3 V c).arrAt 2 cfg3.N = G3 V c :=
  (dat3 V c).arrAt_eq_of_cover 2 (G3 V c) (fun t _ => flushed3_eq V c t) fun i => by
    have h0 : (i 0).val < 65536 := (i 0).isLt
    have h1 : (i 1).val < 64 := (i 1).isLt
    obtain ⟨t, ht⟩ : ∃ t : Fin cfg3.N, t.val = (i 0).val / 8192 :=
      ⟨⟨(i 0).val / 8192, by rw [show cfg3.N = 8 from N_3]; omega⟩, rfl⟩
    obtain ⟨e0, e1, e2, e3, e4, e5⟩ := idx_facts3 t
    refine ⟨t, flush3_2 t, ?_⟩
    rw [mem_blk3]
    intro a
    match a with
    | ⟨0, _⟩ =>
      show win3_2.index t (0 : Fin 2) * 8192 ≤ (i 0).val ∧ (i 0).val < win3_2.index t (0 : Fin 2) * 8192 + 8192
      omega
    | ⟨1, _⟩ =>
      show win3_2.index t (1 : Fin 2) * 64 ≤ (i 1).val ∧ (i 1).val < win3_2.index t (1 : Fin 2) * 64 + 64
      omega

end Cert.KernelIdeal.Hand

end
-- ==== Proof.RegionMM4.lean ====
/-
  Region 4 of the kernel multiplies row blocks of one array by a whole weight matrix. Block t of the left operand is
  rows 8192·t … 8192·t + 8191 of its array, the weight block is the whole matrix at every point, and entry (p, j) of the
  block's product is Σ_k X(8192·t + p, k)·W(k, j): the block of the one whole product that the point writes back. The eight
  blocks tile the 65536 rows, so the output array ends holding the whole product.
-/
import proofs.«119593_j82308753260856_1_alg».proof.Proof.Gen.KernelIdeal.Frame
import proofs.«119593_j82308753260856_1_alg».proof.Proof.LibRowProduct
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The body's product at entry (p, q) of its block. -/
theorem pay4_apply (x0 : Vec Ideal S8192x64 .f32) (x1 : Vec Ideal S64x2 .f32) (p : Fin 8192) (q : Fin 2) :
    k4_pay1 x0 x1 (ix2 p q) = ∑ k : Fin 64, x0 (ix2 p k) * x1 (ix2 k q) := by
  unfold k4_pay1
  rw [shapeCast_self]
  exact RowProduct.body_apply none x0 x1 _ _ p q

/-- The block indices over the grid: the row blocks follow the point, the weight block stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The whole product of the region's two arrays as it finds them. -/
abbrev G4 (c : Dev nD) : FVec Ideal ⟨2, ![65536, 2]⟩ .f32 :=
  RowProduct.prod (A := 65536) (K := 64) (M := 2) (V c (Pipeline.arrRef spec4 0)) (V c (Pipeline.arrRef spec4 1))

/-- What point t writes back is block t of the whole product. -/
theorem flushed4_eq (c : Dev nD) (t : Fin cfg4.N) :
    (dat4 V c).flushed 2 t = ((cfg4.win 2).blk t).view.read (Elt Ideal) (G4 V c) := by
  show (cfg4.win 2).cut (grid4.coords t) ((dat4 V c).after 2 t) = _
  rw [after4_2]
  unfold out4_2
  rw [View.canon_unit_zero hz4]
  simp only [View.ld_unit_zero (S := S8192x64) hz4, View.ld_unit_zero (S := S64x2) hz4]
  obtain ⟨e0, e1, e2, e3, e4, e5⟩ := idx_facts4 t
  have ht : t.val < 8 := t.isLt
  funext j
  have hp : (j 0).val < 8192 := (j 0).isLt
  have hq : (j 1).val < 2 := (j 1).isLt
  have hr : t.val * 8192 + (j 0).val < 65536 := by omega
  show k4_pay1 (iblk4 V c 0 t) (iblk4 V c 1 t) j = G4 V c (((cfg4.win 2).blk t).view.emb j)
  have ej : j = ix2 (⟨(j 0).val, hp⟩ : Fin 8192) (⟨(j 1).val, hq⟩ : Fin 2) :=
    funext fun a => Fin.ext (by match a with | ⟨0, _⟩ => rfl | ⟨1, _⟩ => rfl)
  have ee : ((cfg4.win 2).blk t).view.emb j = ix2 (⟨t.val * 8192 + (j 0).val, hr⟩ : Fin 65536) (⟨(j 1).val, hq⟩ : Fin 2) := by
    funext a; apply Fin.ext
    match a with
    | ⟨0, _⟩ => show win4_2.index t (0 : Fin 2) * 8192 + 1 * (j 0).val = t.val * 8192 + (j 0).val; omega
    | ⟨1, _⟩ => show win4_2.index t (1 : Fin 2) * 2 + 1 * (j 1).val = (j 1).val; omega
  rw [ee]
  refine (congrArg (k4_pay1 (iblk4 V c 0 t) (iblk4 V c 1 t)) ej).trans ?_
  refine (pay4_apply _ _ _ _).trans ?_
  refine RowProduct.block_rows (A := 65536) _ _ _ _ (t.val * 8192) ⟨(j 0).val, hp⟩ ⟨(j 1).val, hq⟩ hr (fun k => ?_) (fun k => ?_)
  · show V c (Pipeline.arrRef spec4 0) (((cfg4.win 0).blk t).view.emb (ix2 (⟨(j 0).val, hp⟩ : Fin 8192) k)) = _
    refine congrArg (V c (Pipeline.arrRef spec4 0)) ?_
    funext a; apply Fin.ext
    match a with
    | ⟨0, _⟩ => show win4_0.index t (0 : Fin 2) * 8192 + 1 * (j 0).val = t.val * 8192 + (j 0).val; omega
    | ⟨1, _⟩ => show win4_0.index t (1 : Fin 2) * 64 + 1 * k.val = k.val; omega
  · show V c (Pipeline.arrRef spec4 1) (((cfg4.win 1).blk t).view.emb (ix2 k (⟨(j 1).val, hq⟩ : Fin 2))) = _
    refine congrArg (V c (Pipeline.arrRef spec4 1)) ?_
    funext a; apply Fin.ext
    match a with
    | ⟨0, _⟩ => show win4_1.index t (0 : Fin 2) * 64 + 1 * k.val = k.val; omega
    | ⟨1, _⟩ => show win4_1.index t (1 : Fin 2) * 2 + 1 * (j 1).val = (j 1).val; omega

/-- An index of the output array is in point t's block iff each coordinate is in the block's range on its axis. -/
theorem mem_blk4 (t : Fin cfg4.N) (i : S65536x2.Idx) :
    i ∈ ((cfg4.win 2).blk t).view.set ↔ ∀ a : Fin 2, win4_2.index t a * S8192x2.size a ≤ (i a).val
      ∧ (i a).val < win4_2.index t a * S8192x2.size a + S8192x2.size a := by
  show i ∈ ((View.whole main_v64).slice (win4_2.rect t)).set ↔ _
  rw [View.set_slice_whole, Rect.mem_set_unit]
  exact Iff.rfl

/-- The output array after the region: the whole product (row r lies in the block of point r / 8192). -/
theorem final4 (c : Dev nD) : (dat4 V c).arrAt 2 cfg4.N = G4 V c :=
  (dat4 V c).arrAt_eq_of_cover 2 (G4 V c) (fun t _ => flushed4_eq V c t) fun i => by
    have h0 : (i 0).val < 65536 := (i 0).isLt
    have h1 : (i 1).val < 2 := (i 1).isLt
    obtain ⟨t, ht⟩ : ∃ t : Fin cfg4.N, t.val = (i 0).val / 8192 :=
      ⟨⟨(i 0).val / 8192, by rw [show cfg4.N = 8 from N_4]; omega⟩, rfl⟩
    obtain ⟨e0, e1, e2, e3, e4, e5⟩ := idx_facts4 t
    refine ⟨t, flush4_2 t, ?_⟩
    rw [mem_blk4]
    intro a
    match a with
    | ⟨0, _⟩ =>
      show win4_2.index t (0 : Fin 2) * 8192 ≤ (i 0).val ∧ (i 0).val < win4_2.index t (0 : Fin 2) * 8192 + 8192
      omega
    | ⟨1, _⟩ =>
      show win4_2.index t (1 : Fin 2) * 2 ≤ (i 1).val ∧ (i 1).val < win4_2.index t (1 : Fin 2) * 2 + 2
      omega

end Cert.KernelIdeal.Hand

end
-- ==== Proof.LibBiasRows.lean ====
/-
  A bias row added to every row of a matrix, `Z(r,j) + b(j)`, over the extended reals, as ONE function and in its two
  spellings. A kernel body holds the bias as a one-row matrix `[1, M]` and repeats it down the rows of its block. The host
  lifts the bias vector `[M]` to `[1, M]` and then to `[A, M]`. Entry `(r, j)` reads row `r` of `Z` only, so a block of
  rows of `Z` yields the same rows of the result. No finiteness is used: it is one sum on both sides.
-/
import Idealize.ShloMosaic.PureOps.Ideal.Laws
import Idealize.ShloMosaic.Lib.ValueIdx
import Idealize.ShloMosaic.Lib.ValueLayout
import Idealize.ShloMosaic.Lib.Pipeline.Value
import proofs.«119593_j82308753260856_1_alg».proof.Proof.LibAffine

namespace Idealize.ShloMosaic.BiasRows

open Idealize.ShloMosaic.ValueIdx

variable {A B M : Nat}

/-- `Z(r,j) + b(0,j)`, the bias a one-row matrix. -/
noncomputable def biasRows (Z : FVec Ideal ⟨2, ![A, M]⟩ .f32) (b : FVec Ideal ⟨2, ![1, M]⟩ .f32) : FVec Ideal ⟨2, ![A, M]⟩ .f32 :=
  fun i => Z i + b (ix2 (0 : Fin 1) ⟨(i 1).val, idx2_lt1 i⟩)

theorem biasRows_ix2 (Z : FVec Ideal ⟨2, ![A, M]⟩ .f32) (b : FVec Ideal ⟨2, ![1, M]⟩ .f32) (r : Fin A) (j : Fin M) :
    biasRows Z b (ix2 r j) = Z (ix2 r j) + b (ix2 (0 : Fin 1) j) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    addf (shapeCast ⟨2, ![B, M]⟩ x0 h0) (broadcastTo ⟨2, ![B, M]⟩ (shapeCast ⟨2, ![1, M]⟩ x1 h1) hb) (ix2 p j)
      = x0 (ix2 p j) + x1 (ix2 (0 : Fin 1) j) := by
  rw [shapeCast_self, shapeCast_self]
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    x0 (ix2 p j) + x1 (ix2 (0 : Fin 1) j) = biasRows Z b (ix2 ⟨o + p.val, hr⟩ j) := by
  rw [biasRows_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (r : Fin A) (j : Fin M) :
    addf Z (broadcastInDim ⟨2, ![A, M]⟩ ![0, 1] h2 (broadcastInDim ⟨2, ![1, M]⟩ ![1] h1 b)) (ix2 r j)
      = Z (ix2 r j) + b (ix1 j) := by
  refine (addf_apply _ _ _).trans ?_
  exact congrArg (Z (ix2 r j) + ·) (Affine.bias_rows_apply b h1 h2 r j)

/-- The two spellings agree as whole arrays: the kernel's bias row is the host's bias vector recast to `[1, M]`. -/
theorem biasRows_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    biasRows Z (shapeCast ⟨2, ![1, M]⟩ b hc)
      = addf Z (broadcastInDim ⟨2, ![A, M]⟩ ![0, 1] h2 (broadcastInDim ⟨2, ![1, M]⟩ ![1] h1 b)) := by
  funext i
  obtain ⟨r, j, rfl⟩ : ∃ (r : Fin A) (j : Fin M), i = ix2 r j := ⟨i 0, i 1, eq_ix2 i⟩
  rw [host_apply, biasRows_ix2, shapeCast_a_1a_apply]

end Idealize.ShloMosaic.BiasRows
-- ==== Proof.RegionBias5.lean ====
/-
  Region 5 of the kernel adds a bias row to every row of an array, one block of 8192 rows per
  grid point. Block t of the array is rows 8192·t … 8192·t + 8191, the one-row bias block is the whole bias at every point,
  and entry (p, j) of what the body stores reads row 8192·t + p only: the block of the one whole-array result that the
  point writes back. The eight blocks tile the 65536 rows, so the output array ends holding that whole result.
-/
import proofs.«119593_j82308753260856_1_alg».proof.Proof.Gen.KernelIdeal.Frame
import proofs.«119593_j82308753260856_1_alg».proof.Proof.LibBiasRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz5 : (![0, 0] : Fin 2 → Nat) = fun _ => 0 := funext fun a => by fin_cases a <;> rfl

/-- What the body stores at entry (p, q) of its block. -/
theorem pay5_apply (x0 : Vec Ideal S8192x2 .f32) (x1 : Vec Ideal S1x2 .f32) (p : Fin 8192) (q : Fin 2) :
    k5_pay1 x0 x1 (ix2 p q) = x0 (ix2 p q) + x1 (ix2 (0 : Fin 1) q) := by
  unfold k5_pay1
  exact BiasRows.body_apply x0 x1 _ _ _ p q

/-- The block indices over the grid: the row blocks follow the point, the bias block stays. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The whole-array result of the region's two arrays as it finds them. -/
abbrev G5 (c : Dev nD) : FVec Ideal ⟨2, ![65536, 2]⟩ .f32 :=
  BiasRows.biasRows (A := 65536) (M := 2) (V c (Pipeline.arrRef spec5 0)) (V c (Pipeline.arrRef spec5 1))

/-- What point t writes back is block t of the whole-array result. -/
theorem flushed5_eq (c : Dev nD) (t : Fin cfg5.N) :
    (dat5 V c).flushed 2 t = ((cfg5.win 2).blk t).view.read (Elt Ideal) (G5 V c) := by
  show (cfg5.win 2).cut (grid5.coords t) ((dat5 V c).after 2 t) = _
  rw [after5_2]
  unfold out5_2
  rw [View.canon_unit_zero hz5]
  simp only [View.ld_unit_zero (S := S8192x2) hz5, View.ld_unit_zero (S := S1x2) hz5]
  obtain ⟨e0, e1, e2, e3, e4, e5⟩ := idx_facts5 t
  have ht : t.val < 8 := t.isLt
  funext j
  have hp : (j 0).val < 8192 := (j 0).isLt
  have hq : (j 1).val < 2 := (j 1).isLt
  have hr : t.val * 8192 + (j 0).val < 65536 := by omega
  show k5_pay1 (iblk5 V c 0 t) (iblk5 V c 1 t) j = G5 V c (((cfg5.win 2).blk t).view.emb j)
  have ej : j = ix2 (⟨(j 0).val, hp⟩ : Fin 8192) (⟨(j 1).val, hq⟩ : Fin 2) :=
    funext fun a => Fin.ext (by match a with | ⟨0, _⟩ => rfl | ⟨1, _⟩ => rfl)
  have ee : ((cfg5.win 2).blk t).view.emb j = ix2 (⟨t.val * 8192 + (j 0).val, hr⟩ : Fin 65536) (⟨(j 1).val, hq⟩ : Fin 2) := by
    funext a; apply Fin.ext
    match a with
    | ⟨0, _⟩ => show win5_2.index t (0 : Fin 2) * 8192 + 1 * (j 0).val = t.val * 8192 + (j 0).val; omega
    | ⟨1, _⟩ => show win5_2.index t (1 : Fin 2) * 2 + 1 * (j 1).val = (j 1).val; omega
  rw [ee]
  refine (congrArg (k5_pay1 (iblk5 V c 0 t) (iblk5 V c 1 t)) ej).trans ?_
  refine (pay5_apply _ _ _ _).trans ?_
  refine BiasRows.block_rows (A := 65536) _ _ _ _ (t.val * 8192) ⟨(j 0).val, hp⟩ ⟨(j 1).val, hq⟩ hr ?_ ?_
  · show V c (Pipeline.arrRef spec5 0) (((cfg5.win 0).blk t).view.emb (ix2 (⟨(j 0).val, hp⟩ : Fin 8192) (⟨(j 1).val, hq⟩ : Fin 2))) = _
    refine congrArg (V c (Pipeline.arrRef spec5 0)) ?_
    funext a; apply Fin.ext
    match a with
    | ⟨0, _⟩ => show win5_0.index t (0 : Fin 2) * 8192 + 1 * (j 0).val = t.val * 8192 + (j 0).val; omega
    | ⟨1, _⟩ => show win5_0.index t (1 : Fin 2) * 2 + 1 * (j 1).val = (j 1).val; omega
  · show V c (Pipeline.arrRef spec5 1) (((cfg5.win 1).blk t).view.emb (ix2 (0 : Fin 1) (⟨(j 1).val, hq⟩ : Fin 2))) = _
    refine congrArg (V c (Pipeline.arrRef spec5 1)) ?_
    funext a; apply Fin.ext
    match a with
    | ⟨0, _⟩ => show win5_1.index t (0 : Fin 2) * 1 + 1 * 0 = 0; omega
    | ⟨1, _⟩ => show win5_1.index t (1 : Fin 2) * 2 + 1 * (j 1).val = (j 1).val; omega

/-- An index of the output array is in point t's block iff each coordinate is in the block's range on its axis. -/
theorem mem_blk5 (t : Fin cfg5.N) (i : S65536x2.Idx) :
    i ∈ ((cfg5.win 2).blk t).view.set ↔ ∀ a : Fin 2, win5_2.index t a * S8192x2.size a ≤ (i a).val
      ∧ (i a).val < win5_2.index t a * S8192x2.size a + S8192x2.size a := by
  show i ∈ ((View.whole main_v66).slice (win5_2.rect t)).set ↔ _
  rw [View.set_slice_whole, Rect.mem_set_unit]
  exact Iff.rfl

/-- The output array after the region: the whole-array result (row r lies in the block of point r / 8192). -/
theorem final5 (c : Dev nD) : (dat5 V c).arrAt 2 cfg5.N = G5 V c :=
  (dat5 V c).arrAt_eq_of_cover 2 (G5 V c) (fun t _ => flushed5_eq V c t) fun i => by
    have h0 : (i 0).val < 65536 := (i 0).isLt
    have h1 : (i 1).val < 2 := (i 1).isLt
    obtain ⟨t, ht⟩ : ∃ t : Fin cfg5.N, t.val = (i 0).val / 8192 :=
      ⟨⟨(i 0).val / 8192, by rw [show cfg5.N = 8 from N_5]; omega⟩, rfl⟩
    obtain ⟨e0, e1, e2, e3, e4, e5⟩ := idx_facts5 t
    refine ⟨t, flush5_2 t, ?_⟩
    rw [mem_blk5]
    intro a
    match a with
    | ⟨0, _⟩ =>
      show win5_2.index t (0 : Fin 2) * 8192 ≤ (i 0).val ∧ (i 0).val < win5_2.index t (0 : Fin 2) * 8192 + 8192
      omega
    | ⟨1, _⟩ =>
      show win5_2.index t (1 : Fin 2) * 2 ≤ (i 1).val ∧ (i 1).val < win5_2.index t (1 : Fin 2) * 2 + 2
      omega

end Cert.KernelIdeal.Hand

end
-- ==== Proof.Stages.lean ====
/-
  The graph side of a two-layer graph convolution, as functions of the edge arrays, spelt in the host operations the
  program prints. Every node gets a self-loop of weight one; the degree of a node is the sum of the weights of the edges
  that end at it; an edge's coefficient is d(src)^(-1/2) · w · d(dst)^(-1/2), with d^(-1/2) replaced by zero where the degree
  is not positive; and the aggregation of a feature matrix gathers the source rows, scales each by its edge's
  coefficient and adds them into the destination rows. Negative indices are wrapped once by the number of nodes, as the
  host's indexing does. None of these operations is opened in the proof: both programs apply the same ones.
-/
import proofs.«119593_j82308753260856_1_alg».proof.Proof.Gen.KernelIdeal
import Idealize.ShloMosaic.PureOps.Ideal

noncomputable section

open Idealize.ShloMosaic Idealize.ShloMosaic.TcCoe

namespace Cert.KernelIdeal.Hand

open Cert.KernelIdeal Cert.KernelIdeal.Facts₀ Cert.KernelIdeal.Facts

/-- Integer and float arrays of a shape over the extended reals. -/
abbrev I32 (S : Shape) := IVec S 32
abbrev F32 (S : Shape) := FVec Ideal S .f32

/-- Row `r` of the edge list followed by the self-loops 0 … 65535. -/
def endIdx0 (ei : I32 S2x1048576) : I32 S1114112 :=
  concatenate S1114112 0 [⟨S1048576, shapeCast S1048576 (extractStridedSlice S1x1048576 ![0, 0] ei slices_S2x1048576_S1x1048576_0_0) shapeCasts_S1x1048576_S1048576⟩,
    ⟨S65536, iotaInDim S65536 32 0⟩] concatenates_S1048576_S65536_S1114112_d0

def endIdx1 (ei : I32 S2x1048576) : I32 S1114112 :=
  concatenate S1114112 0 [⟨S1048576, shapeCast S1048576 (extractStridedSlice S1x1048576 ![1, 0] ei slices_S2x1048576_S1x1048576_1_0) shapeCasts_S1x1048576_S1048576⟩,
    ⟨S65536, iotaInDim S65536 32 0⟩] concatenates_S1048576_S65536_S1114112_d0

/-- The edge weights followed by a one per self-loop. -/
def weights (ew : F32 S1048576) : F32 S1114112 :=
  concatenate S1114112 0 [⟨S1048576, ew⟩,
    ⟨S65536, broadcastInDim S65536 ![] bcast_S_S65536 (constant (F := Ideal) S_ .f32 0x3F800000#32)⟩] concatenates_S1048576_S65536_S1114112_d0

/-- An index vector as a column of one-entry index rows. -/
def asColumn (ix : I32 S1114112) : I32 S1114112x1 := broadcastInDim S1114112x1 ![0] bcast_S1114112_S1114112x1_0 ix

/-- A negative index wrapped once by the number of nodes. -/
def wrapIdx (ix : I32 S1114112) : I32 S1114112 :=
  select (cmpi .slt ix (broadcastInDim S1114112 ![] bcast_S_S1114112 (constantI S_ 32 0#32)))
    (addi ix (broadcastInDim S1114112 ![] bcast_S_S1114112 (constantI S_ 32 65536#32))) ix

/-- The weighted in-degree of every node. -/
def degree (ei : I32 S2x1048576) (ew : F32 S1048576) : F32 S65536 :=
  Host.scatterAdd (F := Ideal) scatter_S65536_S1114112x1_S1114112_n_0_0_1
    (broadcastInDim S65536 ![] bcast_S_S65536 (constant (F := Ideal) S_ .f32 0x00000000#32)) (asColumn (endIdx1 ei)) (weights ew)

/-- d^(-1/2) where the degree is positive, zero elsewhere. -/
def invSqrtDeg (ei : I32 S2x1048576) (ew : F32 S1048576) : F32 S65536 :=
  select (cmpf .ogt (degree ei ew) (broadcastInDim S65536 ![] bcast_S_S65536 (constant (F := Ideal) S_ .f32 0x00000000#32)))
    (Host.rsqrt (F := Ideal) (degree ei ew))
    (broadcastInDim S65536 ![] bcast_S_S65536 (id (constant (F := Ideal) S_ .f32 0x00000000#32)))

/-- The coefficient of every edge: d(src)^(-1/2) · w · d(dst)^(-1/2). -/
def edgeCoef (ei : I32 S2x1048576) (ew : F32 S1048576) : F32 S1114112 :=
  mulf (mulf (Host.gather gather_S65536_S1114112x1_S1114112_n_0_n_n_0_1_1 (invSqrtDeg ei ew) (asColumn (wrapIdx (endIdx0 ei)))) (weights ew))
    (Host.gather gather_S65536_S1114112x1_S1114112_n_0_n_n_0_1_1 (invSqrtDeg ei ew) (asColumn (wrapIdx (endIdx1 ei))))

/-- Source rows gathered, each scaled by its edge's coefficient, added into the destination rows. -/
def aggregate (h : F32 S65536x64) (src dst : I32 S1114112) (coef : F32 S1114112) : F32 S65536x64 :=
  Host.scatterAdd (F := Ideal) scatter_S65536x64_S1114112x1_S1114112x64_1_0_0_1
    (broadcastInDim S65536x64 ![] bcast_S_S65536x64 (constant (F := Ideal) S_ .f32 0x00000000#32)) (asColumn dst)
    (mulf (Host.gather gather_S65536x64_S1114112x1_S1114112x64_1_0_n_n_0_1_164 h (asColumn (wrapIdx src)))
      (broadcastInDim S1114112x64 ![0, 1] bcast_S1114112x1_S1114112x64_0_1 (broadcastInDim S1114112x1 ![0] bcast_S1114112_S1114112x1_0 coef)))

end Cert.KernelIdeal.Hand

end
-- ==== Proof.Spec.lean ====
/-
  The function both programs compute: two graph-convolution layers with the rectifier and a linear head. A layer
  multiplies the node features by its weight matrix, aggregates the product along the edges with the symmetric
  normalisation, adds the bias to every row and takes the maximum with zero; the head multiplies by the last matrix and
  adds its bias. The products and the bias steps are the whole-array functions of rows-times-weights and bias rows; the
  graph side is the host's own operations, which are never opened.
-/
import proofs.«119593_j82308753260856_1_alg».proof.Proof.Stages
import proofs.«119593_j82308753260856_1_alg».proof.Proof.LibRowProduct
import proofs.«119593_j82308753260856_1_alg».proof.Proof.LibBiasRelu
import proofs.«119593_j82308753260856_1_alg».proof.Proof.LibBiasRows

noncomputable section

open Idealize.ShloMosaic Idealize.ShloMosaic.TcCoe

namespace Cert.KernelIdeal.Hand

open Cert.KernelIdeal Cert.KernelIdeal.Facts₀ Cert.KernelIdeal.Facts

/-- One graph-convolution layer with the rectifier: features times weights, aggregated along the edges, plus the bias
    row, maximum with zero. -/
def convLayer {K : Nat} (h : FVec Ideal ⟨2, ![65536, K]⟩ .f32) (W : FVec Ideal ⟨2, ![K, 64]⟩ .f32) (b : F32 S64)
    (ei : I32 S2x1048576) (ew : F32 S1048576) : F32 S65536x64 :=
  BiasRelu.biasRelu (A := 65536) (M := 64)
    (aggregate (RowProduct.prod (A := 65536) (K := K) (M := 64) h W) (endIdx0 ei) (endIdx1 ei) (edgeCoef ei ew))
    (shapeCast S1x64 b shapeCasts_S64_S1x64)

/-- Two layers and the linear head. -/
def gcnOut (x : F32 S65536x16) (ei : I32 S2x1048576) (ew : F32 S1048576) (W1 : F32 S16x64) (b1 : F32 S64) (W2 : F32 S64x64)
    (b2 : F32 S64) (Wl : F32 S64x2) (bl : F32 S2) : F32 S65536x2 :=
  BiasRows.biasRows (A := 65536) (M := 2)
    (RowProduct.prod (A := 65536) (K := 64) (M := 2) (convLayer (K := 64) (convLayer (K := 16) x W1 b1 ei ew) W2 b2 ei ew) Wl)
    (shapeCast S1x2 bl shapeCasts_S2_S1x2)

end Cert.KernelIdeal.Hand

end
-- ==== Proof.KernelValue.lean ====
/-
  The idealized kernel's result as one function of its nine arguments. Each host stretch is read at the buffers the
  next segment uses; each region's output array is the whole-array product or bias(-and-rectify) result of the two arrays
  it is entered with; chaining the twelve segments from the launch memory gives two graph-convolution layers and the
  linear head. The edge indices and coefficients are computed once, before the first region, and reach both
  aggregations unchanged because no later segment writes their buffers.
-/
import proofs.«119593_j82308753260856_1_alg».proof.Proof.KernelRun
import proofs.«119593_j82308753260856_1_alg».proof.Proof.RegionMM0
import proofs.«119593_j82308753260856_1_alg».proof.Proof.RegionBias1
import proofs.«119593_j82308753260856_1_alg».proof.Proof.RegionMM2
import proofs.«119593_j82308753260856_1_alg».proof.Proof.RegionBias3
import proofs.«119593_j82308753260856_1_alg».proof.Proof.RegionMM4
import proofs.«119593_j82308753260856_1_alg».proof.Proof.RegionBias5
import proofs.«119593_j82308753260856_1_alg».proof.Proof.Spec
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.KernelIdeal.Facts₀ Cert.KernelIdeal.Facts

/-! ## The host stretches, from any contents -/

section Stretches

variable (Vl : Valuation τ sig (Elt Ideal))

theorem p0_v5 : StableHlo.after hostOps0 Vl (Proc.devRef .tc main_v5) = endIdx0 (Vl (Proc.devRef .tc main_arg1)) := by
  after_results_simp
  rfl

theorem p0_v6 : StableHlo.after hostOps0 Vl (Proc.devRef .tc main_v6) = endIdx1 (Vl (Proc.devRef .tc main_arg1)) := by
  after_results_simp
  rfl

theorem p0_v8 : StableHlo.after hostOps0 Vl (Proc.devRef .tc main_v8) = weights (Vl (Proc.devRef .tc main_arg2)) := by
  after_results_simp
  rfl

theorem p0_v13 : StableHlo.after hostOps0 Vl (Proc.devRef .tc main_v13) = cmpf .ogt (degree (Vl (Proc.devRef .tc main_arg1)) (Vl (Proc.devRef .tc main_arg2))) (broadcastInDim S65536 ![] Facts₀.bcast_S_S65536 (constant (F := Ideal) S_ .f32 0x00000000#32)) := by
  after_results_simp
  rfl

theorem p0_v14 : StableHlo.after hostOps0 Vl (Proc.devRef .tc main_v14) = Host.rsqrt (F := Ideal) (degree (Vl (Proc.devRef .tc main_arg1)) (Vl (Proc.devRef .tc main_arg2))) := by
  after_results_simp
  rfl

theorem p0_cst2 : StableHlo.after hostOps0 Vl (Proc.devRef .tc main_cst_2) = constant (F := Ideal) S_ .f32 0x00000000#32 := by
  after_results_simp

theorem p1_v15 : StableHlo.after hostOps0_1 Vl (Proc.devRef .tc main_v15) = select (Vl (Proc.devRef .tc main_v13)) (Vl (Proc.devRef .tc main_v14)) (broadcastInDim S65536 ![] Facts₀.bcast_S_S65536 (id (Vl (Proc.devRef .tc main_cst_2)))) := by
  after_results_simp
  rfl

theorem p1_v5 : StableHlo.after hostOps0_1 Vl (Proc.devRef .tc main_v5) = Vl (Proc.devRef .tc main_v5) := by
  after_results_simp

theorem p1_v6 : StableHlo.after hostOps0_1 Vl (Proc.devRef .tc main_v6) = Vl (Proc.devRef .tc main_v6) := by
  after_results_simp

theorem p1_v8 : StableHlo.after hostOps0_1 Vl (Proc.devRef .tc main_v8) = Vl (Proc.devRef .tc main_v8) := by
  after_results_simp

theorem p2_v31 : StableHlo.after hostOps0_2 Vl (Proc.devRef .tc main_v31) = mulf (F := Ideal) (φ := .f32) (mulf (F := Ideal) (φ := .f32) (Host.gather gather_S65536_S1114112x1_S1114112_n_0_n_n_0_1_1 (Vl (Proc.devRef .tc main_v15)) (asColumn (wrapIdx (Vl (Proc.devRef .tc main_v5))))) (Vl (Proc.devRef .tc main_v8))) (Host.gather gather_S65536_S1114112x1_S1114112_n_0_n_n_0_1_1 (Vl (Proc.devRef .tc main_v15)) (asColumn (wrapIdx (Vl (Proc.devRef .tc main_v6))))) := by
  after_results_simp
  rfl

theorem p2_v5 : StableHlo.after hostOps0_2 Vl (Proc.devRef .tc main_v5) = Vl (Proc.devRef .tc main_v5) := by
  after_results_simp

theorem p2_v6 : StableHlo.after hostOps0_2 Vl (Proc.devRef .tc main_v6) = Vl (Proc.devRef .tc main_v6) := by
  after_results_simp

theorem pre_v5 : StableHlo.after hostOps0_2 (StableHlo.after hostOps0_1 (StableHlo.after hostOps0 Vl)) (Proc.devRef .tc main_v5) = endIdx0 (Vl (Proc.devRef .tc main_arg1)) := by
  rw [p2_v5, p1_v5, p0_v5]

theorem pre_v6 : StableHlo.after hostOps0_2 (StableHlo.after hostOps0_1 (StableHlo.after hostOps0 Vl)) (Proc.devRef .tc main_v6) = endIdx1 (Vl (Proc.devRef .tc main_arg1)) := by
  rw [p2_v6, p1_v6, p0_v6]

theorem pre_v31 : StableHlo.after hostOps0_2 (StableHlo.after hostOps0_1 (StableHlo.after hostOps0 Vl)) (Proc.devRef .tc main_v31) = edgeCoef (Vl (Proc.devRef .tc main_arg1)) (Vl (Proc.devRef .tc main_arg2)) := by
  rw [p2_v31, p1_v15, p1_v5, p1_v6, p1_v8, p0_v13, p0_v14, p0_cst2, p0_v5, p0_v6, p0_v8]
  rfl

theorem pre_arg0 : StableHlo.after hostOps0_2 (StableHlo.after hostOps0_1 (StableHlo.after hostOps0 Vl)) (Proc.devRef .tc main_arg0) = Vl (Proc.devRef .tc main_arg0) := by
  after_results_simp

theorem pre_arg3 : StableHlo.after hostOps0_2 (StableHlo.after hostOps0_1 (StableHlo.after hostOps0 Vl)) (Proc.devRef .tc main_arg3) = Vl (Proc.devRef .tc main_arg3) := by
  after_results_simp

theorem pre_arg4 : StableHlo.after hostOps0_2 (StableHlo.after hostOps0_1 (StableHlo.after hostOps0 Vl)) (Proc.devRef .tc main_arg4) = Vl (Proc.devRef .tc main_arg4) := by
  after_results_simp

theorem pre_arg5 : StableHlo.after hostOps0_2 (StableHlo.after hostOps0_1 (StableHlo.after hostOps0 Vl)) (Proc.devRef .tc main_arg5) = Vl (Proc.devRef .tc main_arg5) := by
  after_results_simp

theorem pre_arg6 : StableHlo.after hostOps0_2 (StableHlo.after hostOps0_1 (StableHlo.after hostOps0 Vl)) (Proc.devRef .tc main_arg6) = Vl (Proc.devRef .tc main_arg6) := by
  after_results_simp

theorem pre_arg7 : StableHlo.after hostOps0_2 (StableHlo.after hostOps0_1 (StableHlo.after hostOps0 Vl)) (Proc.devRef .tc main_arg7) = Vl (Proc.devRef .tc main_arg7) := by
  after_results_simp

theorem pre_arg8 : StableHlo.after hostOps0_2 (StableHlo.after hostOps0_1 (StableHlo.after hostOps0 Vl)) (Proc.devRef .tc main_arg8) = Vl (Proc.devRef .tc main_arg8) := by
  after_results_simp

theorem s1_v45 : StableHlo.after hostOps1 Vl (Proc.devRef .tc main_v45) = aggregate (Vl (Proc.devRef .tc main_v32)) (Vl (Proc.devRef .tc main_v5)) (Vl (Proc.devRef .tc main_v6)) (Vl (Proc.devRef .tc main_v31)) := by
  after_results_simp
  rfl
theorem s1_v46 : StableHlo.after hostOps1 Vl (Proc.devRef .tc main_v46) = shapeCast S1x64 (Vl (Proc.devRef .tc main_arg4)) Facts₀.shapeCasts_S64_S1x64 := by
  after_results_simp
  rfl

theorem s1_v5 : StableHlo.after hostOps1 Vl (Proc.devRef .tc main_v5) = Vl (Proc.devRef .tc main_v5) := by
  after_results_simp

theorem s1_v6 : StableHlo.after hostOps1 Vl (Proc.devRef .tc main_v6) = Vl (Proc.devRef .tc main_v6) := by
  after_results_simp

theorem s1_v31 : StableHlo.after hostOps1 Vl (Proc.devRef .tc main_v31) = Vl (Proc.devRef .tc main_v31) := by
  after_results_simp

theorem s1_arg5 : StableHlo.after hostOps1 Vl (Proc.devRef .tc main_arg5) = Vl (Proc.devRef .tc main_arg5) := by
  after_results_simp

theorem s1_arg6 : StableHlo.after hostOps1 Vl (Proc.devRef .tc main_arg6) = Vl (Proc.devRef .tc main_arg6) := by
  after_results_simp

theorem s1_arg7 : StableHlo.after hostOps1 Vl (Proc.devRef .tc main_arg7) = Vl (Proc.devRef .tc main_arg7) := by
  after_results_simp

theorem s1_arg8 : StableHlo.after hostOps1 Vl (Proc.devRef .tc main_arg8) = Vl (Proc.devRef .tc main_arg8) := by
  after_results_simp

theorem s3_v61 : StableHlo.after hostOps3 Vl (Proc.devRef .tc main_v61) = aggregate (Vl (Proc.devRef .tc main_v48)) (Vl (Proc.devRef .tc main_v5)) (Vl (Proc.devRef .tc main_v6)) (Vl (Proc.devRef .tc main_v31)) := by
  after_results_simp
  rfl
theorem s3_v62 : StableHlo.after hostOps3 Vl (Proc.devRef .tc main_v62) = shapeCast S1x64 (Vl (Proc.devRef .tc main_arg6)) Facts₀.shapeCasts_S64_S1x64 := by
  after_results_simp
  rfl

theorem s3_arg7 : StableHlo.after hostOps3 Vl (Proc.devRef .tc main_arg7) = Vl (Proc.devRef .tc main_arg7) := by
  after_results_simp

theorem s3_arg8 : StableHlo.after hostOps3 Vl (Proc.devRef .tc main_arg8) = Vl (Proc.devRef .tc main_arg8) := by
  after_results_simp

theorem s5_v65 : StableHlo.after hostOps5 Vl (Proc.devRef .tc main_v65) = shapeCast S1x2 (Vl (Proc.devRef .tc main_arg8)) Facts₀.shapeCasts_S2_S1x2 := by
  after_results_simp
  rfl

theorem s5_v64 : StableHlo.after hostOps5 Vl (Proc.devRef .tc main_v64) = Vl (Proc.devRef .tc main_v64) := by
  after_results_simp

end Stretches

/-! ## The contents at the segment boundaries, from the launch memory -/

section Boundaries

variable (m : (ℓ : Loc nD τ sig) → Buf (Elt Ideal) ℓ) (ρ : Dev nD → PrngReg) (c : Dev nD)

/-- The first layer's features, and the second's, as the run holds them. -/
abbrev h1 : F32 S65536x64 := convLayer (K := 16) (m ((c : Thread nD τ).loc main_arg0)) (m ((c : Thread nD τ).loc main_arg3)) (m ((c : Thread nD τ).loc main_arg4)) (m ((c : Thread nD τ).loc main_arg1)) (m ((c : Thread nD τ).loc main_arg2))
abbrev h2 : F32 S65536x64 := convLayer (K := 64) (h1 m c) (m ((c : Thread nD τ).loc main_arg5)) (m ((c : Thread nD τ).loc main_arg6)) (m ((c : Thread nD τ).loc main_arg1)) (m ((c : Thread nD τ).loc main_arg2))

/-! ### Region 0's entry: the edge arrays are computed, the arguments are as launched -/

theorem W3_v5 : W3 m ρ c (Proc.devRef .tc main_v5) = endIdx0 (m ((c : Thread nD τ).loc main_arg1)) := pre_v5 (W0 m ρ c)
theorem W3_v6 : W3 m ρ c (Proc.devRef .tc main_v6) = endIdx1 (m ((c : Thread nD τ).loc main_arg1)) := pre_v6 (W0 m ρ c)
theorem W3_v31 : W3 m ρ c (Proc.devRef .tc main_v31) = edgeCoef (m ((c : Thread nD τ).loc main_arg1)) (m ((c : Thread nD τ).loc main_arg2)) := pre_v31 (W0 m ρ c)
theorem W3_arg0 : W3 m ρ c (Proc.devRef .tc main_arg0) = (m ((c : Thread nD τ).loc main_arg0)) := pre_arg0 (W0 m ρ c)
theorem W3_arg3 : W3 m ρ c (Proc.devRef .tc main_arg3) = (m ((c : Thread nD τ).loc main_arg3)) := pre_arg3 (W0 m ρ c)
theorem W3_arg4 : W3 m ρ c (Proc.devRef .tc main_arg4) = (m ((c : Thread nD τ).loc main_arg4)) := pre_arg4 (W0 m ρ c)
theorem W3_arg5 : W3 m ρ c (Proc.devRef .tc main_arg5) = (m ((c : Thread nD τ).loc main_arg5)) := pre_arg5 (W0 m ρ c)
theorem W3_arg6 : W3 m ρ c (Proc.devRef .tc main_arg6) = (m ((c : Thread nD τ).loc main_arg6)) := pre_arg6 (W0 m ρ c)
theorem W3_arg7 : W3 m ρ c (Proc.devRef .tc main_arg7) = (m ((c : Thread nD τ).loc main_arg7)) := pre_arg7 (W0 m ρ c)
theorem W3_arg8 : W3 m ρ c (Proc.devRef .tc main_arg8) = (m ((c : Thread nD τ).loc main_arg8)) := pre_arg8 (W0 m ρ c)

/-! ### Region 0: the first product -/

theorem W4_v32 : W4 m ρ c (Proc.devRef .tc main_v32) = RowProduct.prod (A := 65536) (K := 16) (M := 64) (m ((c : Thread nD τ).loc main_arg0)) (m ((c : Thread nD τ).loc main_arg3)) := by
  refine (W4_arr m ρ c 2).trans ?_
  refine (final0 (V3 m ρ) c).trans ?_
  show RowProduct.prod (A := 65536) (K := 16) (M := 64) (W3 m ρ c (Proc.devRef .tc main_arg0)) (W3 m ρ c (Proc.devRef .tc main_arg3)) = _
  rw [W3_arg0, W3_arg3]

/-! ### The first aggregation and region 1: the first layer -/

theorem W5_v45 : W5 m ρ c (Proc.devRef .tc main_v45)
    = aggregate (RowProduct.prod (A := 65536) (K := 16) (M := 64) (m ((c : Thread nD τ).loc main_arg0)) (m ((c : Thread nD τ).loc main_arg3))) (endIdx0 (m ((c : Thread nD τ).loc main_arg1))) (endIdx1 (m ((c : Thread nD τ).loc main_arg1))) (edgeCoef (m ((c : Thread nD τ).loc main_arg1)) (m ((c : Thread nD τ).loc main_arg2))) := by
  refine (s1_v45 (W4 m ρ c)).trans ?_
  rw [W4_v32, W4_of_ne m ρ c main_v5 (by decide), W4_of_ne m ρ c main_v6 (by decide), W4_of_ne m ρ c main_v31 (by decide),
    W3_v5, W3_v6, W3_v31]

theorem W5_v46 : W5 m ρ c (Proc.devRef .tc main_v46) = shapeCast S1x64 (m ((c : Thread nD τ).loc main_arg4)) Facts₀.shapeCasts_S64_S1x64 := by
  refine (s1_v46 (W4 m ρ c)).trans ?_
  rw [W4_of_ne m ρ c main_arg4 (by decide), W3_arg4]

theorem W5_v5 : W5 m ρ c (Proc.devRef .tc main_v5) = endIdx0 (m ((c : Thread nD τ).loc main_arg1)) := by
  refine (s1_v5 (W4 m ρ c)).trans ?_; rw [W4_of_ne m ρ c main_v5 (by decide), W3_v5]
theorem W5_v6 : W5 m ρ c (Proc.devRef .tc main_v6) = endIdx1 (m ((c : Thread nD τ).loc main_arg1)) := by
  refine (s1_v6 (W4 m ρ c)).trans ?_; rw [W4_of_ne m ρ c main_v6 (by decide), W3_v6]
theorem W5_v31 : W5 m ρ c (Proc.devRef .tc main_v31) = edgeCoef (m ((c : Thread nD τ).loc main_arg1)) (m ((c : Thread nD τ).loc main_arg2)) := by
  refine (s1_v31 (W4 m ρ c)).trans ?_; rw [W4_of_ne m ρ c main_v31 (by decide), W3_v31]
theorem W5_arg5 : W5 m ρ c (Proc.devRef .tc main_arg5) = (m ((c : Thread nD τ).loc main_arg5)) := by
  refine (s1_arg5 (W4 m ρ c)).trans ?_; rw [W4_of_ne m ρ c main_arg5 (by decide), W3_arg5]
theorem W5_arg6 : W5 m ρ c (Proc.devRef .tc main_arg6) = (m ((c : Thread nD τ).loc main_arg6)) := by
  refine (s1_arg6 (W4 m ρ c)).trans ?_; rw [W4_of_ne m ρ c main_arg6 (by decide), W3_arg6]
theorem W5_arg7 : W5 m ρ c (Proc.devRef .tc main_arg7) = (m ((c : Thread nD τ).loc main_arg7)) := by
  refine (s1_arg7 (W4 m ρ c)).trans ?_; rw [W4_of_ne m ρ c main_arg7 (by decide), W3_arg7]
theorem W5_arg8 : W5 m ρ c (Proc.devRef .tc main_arg8) = (m ((c : Thread nD τ).loc main_arg8)) := by
  refine (s1_arg8 (W4 m ρ c)).trans ?_; rw [W4_of_ne m ρ c main_arg8 (by decide), W3_arg8]

theorem W6_v47 : W6 m ρ c (Proc.devRef .tc main_v47) = h1 m c := by
  refine (W6_arr m ρ c 2).trans ?_
  refine (final1 (V5 m ρ) c).trans ?_
  show BiasRelu.biasRelu (A := 65536) (M := 64) (W5 m ρ c (Proc.devRef .tc main_v45)) (W5 m ρ c (Proc.devRef .tc main_v46)) = _
  rw [W5_v45, W5_v46]
  rfl

/-! ### Region 2: the second product -/

theorem W7_v48 : W7 m ρ c (Proc.devRef .tc main_v48) = RowProduct.prod (A := 65536) (K := 64) (M := 64) (h1 m c) (m ((c : Thread nD τ).loc main_arg5)) := by
  refine (W7_arr m ρ c 2).trans ?_
  refine (final2 (V6 m ρ) c).trans ?_
  show RowProduct.prod (A := 65536) (K := 64) (M := 64) (W6 m ρ c (Proc.devRef .tc main_v47)) (W6 m ρ c (Proc.devRef .tc main_arg5)) = _
  rw [W6_v47, W6_of_ne m ρ c main_arg5 (by decide), W5_arg5]

theorem W7_v5 : W7 m ρ c (Proc.devRef .tc main_v5) = endIdx0 (m ((c : Thread nD τ).loc main_arg1)) := by
  rw [W7_of_ne m ρ c main_v5 (by decide), W6_of_ne m ρ c main_v5 (by decide), W5_v5]
theorem W7_v6 : W7 m ρ c (Proc.devRef .tc main_v6) = endIdx1 (m ((c : Thread nD τ).loc main_arg1)) := by
  rw [W7_of_ne m ρ c main_v6 (by decide), W6_of_ne m ρ c main_v6 (by decide), W5_v6]
theorem W7_v31 : W7 m ρ c (Proc.devRef .tc main_v31) = edgeCoef (m ((c : Thread nD τ).loc main_arg1)) (m ((c : Thread nD τ).loc main_arg2)) := by
  rw [W7_of_ne m ρ c main_v31 (by decide), W6_of_ne m ρ c main_v31 (by decide), W5_v31]
theorem W7_arg6 : W7 m ρ c (Proc.devRef .tc main_arg6) = (m ((c : Thread nD τ).loc main_arg6)) := by
  rw [W7_of_ne m ρ c main_arg6 (by decide), W6_of_ne m ρ c main_arg6 (by decide), W5_arg6]
theorem W7_arg7 : W7 m ρ c (Proc.devRef .tc main_arg7) = (m ((c : Thread nD τ).loc main_arg7)) := by
  rw [W7_of_ne m ρ c main_arg7 (by decide), W6_of_ne m ρ c main_arg7 (by decide), W5_arg7]
theorem W7_arg8 : W7 m ρ c (Proc.devRef .tc main_arg8) = (m ((c : Thread nD τ).loc main_arg8)) := by
  rw [W7_of_ne m ρ c main_arg8 (by decide), W6_of_ne m ρ c main_arg8 (by decide), W5_arg8]

/-! ### The second aggregation and region 3: the second layer -/

theorem W8_v61 : W8 m ρ c (Proc.devRef .tc main_v61)
    = aggregate (RowProduct.prod (A := 65536) (K := 64) (M := 64) (h1 m c) (m ((c : Thread nD τ).loc main_arg5))) (endIdx0 (m ((c : Thread nD τ).loc main_arg1))) (endIdx1 (m ((c : Thread nD τ).loc main_arg1))) (edgeCoef (m ((c : Thread nD τ).loc main_arg1)) (m ((c : Thread nD τ).loc main_arg2))) := by
  refine (s3_v61 (W7 m ρ c)).trans ?_
  rw [W7_v48, W7_v5, W7_v6, W7_v31]

theorem W8_v62 : W8 m ρ c (Proc.devRef .tc main_v62) = shapeCast S1x64 (m ((c : Thread nD τ).loc main_arg6)) Facts₀.shapeCasts_S64_S1x64 := by
  refine (s3_v62 (W7 m ρ c)).trans ?_
  rw [W7_arg6]
theorem W8_arg7 : W8 m ρ c (Proc.devRef .tc main_arg7) = (m ((c : Thread nD τ).loc main_arg7)) := by
  refine (s3_arg7 (W7 m ρ c)).trans ?_; rw [W7_arg7]
theorem W8_arg8 : W8 m ρ c (Proc.devRef .tc main_arg8) = (m ((c : Thread nD τ).loc main_arg8)) := by
  refine (s3_arg8 (W7 m ρ c)).trans ?_; rw [W7_arg8]

theorem W9_v63 : W9 m ρ c (Proc.devRef .tc main_v63) = h2 m c := by
  refine (W9_arr m ρ c 2).trans ?_
  refine (final3 (V8 m ρ) c).trans ?_
  show BiasRelu.biasRelu (A := 65536) (M := 64) (W8 m ρ c (Proc.devRef .tc main_v61)) (W8 m ρ c (Proc.devRef .tc main_v62)) = _
  rw [W8_v61, W8_v62]
  rfl

/-! ### Regions 4 and 5: the head -/

theorem W10_v64 : W10 m ρ c (Proc.devRef .tc main_v64) = RowProduct.prod (A := 65536) (K := 64) (M := 2) (h2 m c) (m ((c : Thread nD τ).loc main_arg7)) := by
  refine (W10_arr m ρ c 2).trans ?_
  refine (final4 (V9 m ρ) c).trans ?_
  show RowProduct.prod (A := 65536) (K := 64) (M := 2) (W9 m ρ c (Proc.devRef .tc main_v63)) (W9 m ρ c (Proc.devRef .tc main_arg7)) = _
  rw [W9_v63, W9_of_ne m ρ c main_arg7 (by decide), W8_arg7]

theorem W11_v64 : W11 m ρ c (Proc.devRef .tc main_v64) = RowProduct.prod (A := 65536) (K := 64) (M := 2) (h2 m c) (m ((c : Thread nD τ).loc main_arg7)) := by
  refine (s5_v64 (W10 m ρ c)).trans ?_; rw [W10_v64]

theorem W11_v65 : W11 m ρ c (Proc.devRef .tc main_v65) = shapeCast S1x2 (m ((c : Thread nD τ).loc main_arg8)) Facts₀.shapeCasts_S2_S1x2 := by
  refine (s5_v65 (W10 m ρ c)).trans ?_
  rw [W10_of_ne m ρ c main_arg8 (by decide), W9_of_ne m ρ c main_arg8 (by decide), W8_arg8]

/-- The result buffer after the last region: the two layers and the head of the launch arguments. -/
theorem W12_v66 : W12 m ρ c (Proc.devRef .tc main_v66)
    = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 2).trans ?_
  refine (final5 (V11 m ρ) c).trans ?_
  show BiasRows.biasRows (A := 65536) (M := 2) (W11 m ρ c (Proc.devRef .tc main_v64)) (W11 m ρ c (Proc.devRef .tc main_v65)) = _
  rw [W11_v64, W11_v65]
  rfl

end Boundaries

/-! ## The run -/

/-- Every weakly fair execution of the idealized kernel terminates with the result at the two layers and the head of the
    launch arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v66) = gcnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W12_v66 m ρ c), (h c).2⟩) (run_out m ρ)

end Cert.KernelIdeal.Hand

end
-- ==== Proof.RefValue.lean ====
/-
  The idealized reference, one stage at a time, is the same function. Its index arrays, weights and edge coefficients are
  the host operations of the graph side, computed twice with the same result; each `dot_general` is the whole-array
  product of rows and weights; each bias step, with or without the rectifier, is the whole-array bias function with the
  bias vector recast to a one-row matrix. The aggregation is the same gather, scaling and scatter-add on both sides.
-/
import proofs.«119593_j82308753260856_1_alg».proof.Proof.Gen.ReferenceIdeal.Read
import proofs.«119593_j82308753260856_1_alg».proof.Proof.Spec

set_option maxRecDepth 16384

noncomputable section

open Idealize.ShloMosaic Idealize.ShloMosaic.TcCoe

namespace Cert.ReferenceIdeal.Hand

open Cert.ReferenceIdeal Cert.ReferenceIdeal.Read Cert.ReferenceIdeal.Facts₀ Cert.ReferenceIdeal.Facts
open Cert.KernelIdeal.Hand (endIdx0 endIdx1 weights edgeCoef aggregate convLayer gcnOut)

/-! ## The graph side -/

theorem src_eq (x1 : (⟨S2x1048576, .i32⟩ : BufTy).Contents (Elt Ideal)) : val_main_v5 (F := Ideal) x1 = endIdx0 x1 := rfl
theorem dst_eq (x1 : (⟨S2x1048576, .i32⟩ : BufTy).Contents (Elt Ideal)) : val_main_v6 (F := Ideal) x1 = endIdx1 x1 := rfl
theorem src_eq' (x1 : (⟨S2x1048576, .i32⟩ : BufTy).Contents (Elt Ideal)) : val_main_v51 (F := Ideal) x1 = endIdx0 x1 := rfl
theorem dst_eq' (x1 : (⟨S2x1048576, .i32⟩ : BufTy).Contents (Elt Ideal)) : val_main_v52 (F := Ideal) x1 = endIdx1 x1 := rfl
theorem coef_eq (x1 : (⟨S2x1048576, .i32⟩ : BufTy).Contents (Elt Ideal)) (x2 : (⟨S1048576, .f32⟩ : BufTy).Contents (Elt Ideal)) : val_main_v31 (F := Ideal) x1 x2 = edgeCoef x1 x2 := rfl
theorem coef_eq' (x1 : (⟨S2x1048576, .i32⟩ : BufTy).Contents (Elt Ideal)) (x2 : (⟨S1048576, .f32⟩ : BufTy).Contents (Elt Ideal)) : val_main_v77 (F := Ideal) x1 x2 = edgeCoef x1 x2 := rfl

/-! ## The first layer -/

theorem feat1_eq (x0 : (⟨S65536x16, .f32⟩ : BufTy).Contents (Elt Ideal)) (x3 : (⟨S16x64, .f32⟩ : BufTy).Contents (Elt Ideal)) : val_main_v32 (F := Ideal) x0 x3 = RowProduct.prod (A := 65536) (K := 16) (M := 64) x0 x3 :=
  RowProduct.host_eq none _ x0 x3

theorem agg1_eq (x0 : (⟨S65536x16, .f32⟩ : BufTy).Contents (Elt Ideal)) (x1 : (⟨S2x1048576, .i32⟩ : BufTy).Contents (Elt Ideal)) (x2 : (⟨S1048576, .f32⟩ : BufTy).Contents (Elt Ideal)) (x3 : (⟨S16x64, .f32⟩ : BufTy).Contents (Elt Ideal)) :
    val_main_v45 (F := Ideal) x0 x1 x2 x3
      = aggregate (val_main_v32 (F := Ideal) x0 x3) (val_main_v5 (F := Ideal) x1) (val_main_v6 (F := Ideal) x1) (val_main_v31 (F := Ideal) x1 x2) := rfl

theorem layer1_eq (x0 : (⟨S65536x16, .f32⟩ : BufTy).Contents (Elt Ideal)) (x1 : (⟨S2x1048576, .i32⟩ : BufTy).Contents (Elt Ideal)) (x2 : (⟨S1048576, .f32⟩ : BufTy).Contents (Elt Ideal)) (x3 : (⟨S16x64, .f32⟩ : BufTy).Contents (Elt Ideal)) (x4 : (⟨S64, .f32⟩ : BufTy).Contents (Elt Ideal)) :
    val_main_v49 (F := Ideal) x0 x1 x2 x3 x4 = convLayer (K := 16) x0 x3 x4 x1 x2 := by
  have h := BiasRelu.biasRelu_eq_host (A := 65536) (M := 64) (val_main_v45 (F := Ideal) x0 x1 x2 x3) x4
    Cert.KernelIdeal.Facts₀.shapeCasts_S64_S1x64 bcast_S64_S1x64_1 bcast_S1x64_S65536x64_0_1 bcast_S_S65536x64
  refine Eq.trans ?_ (h.symm.trans ?_)
  · rfl
  · rw [agg1_eq, feat1_eq, src_eq, dst_eq, coef_eq]
    rfl

/-! ## The second layer -/

theorem feat2_eq (x0 : (⟨S65536x16, .f32⟩ : BufTy).Contents (Elt Ideal)) (x1 : (⟨S2x1048576, .i32⟩ : BufTy).Contents (Elt Ideal)) (x2 : (⟨S1048576, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) :
    val_main_v78 (F := Ideal) x0 x1 x2 x3 x4 x5
      = RowProduct.prod (A := 65536) (K := 64) (M := 64) (val_main_v49 (F := Ideal) x0 x1 x2 x3 x4) x5 :=
  RowProduct.host_eq none _ _ x5

theorem agg2_eq (x0 : (⟨S65536x16, .f32⟩ : BufTy).Contents (Elt Ideal)) (x1 : (⟨S2x1048576, .i32⟩ : BufTy).Contents (Elt Ideal)) (x2 : (⟨S1048576, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) :
    val_main_v91 (F := Ideal) x0 x1 x2 x3 x4 x5
      = aggregate (val_main_v78 (F := Ideal) x0 x1 x2 x3 x4 x5) (val_main_v51 (F := Ideal) x1) (val_main_v52 (F := Ideal) x1) (val_main_v77 (F := Ideal) x1 x2) := rfl

theorem layer2_eq (x0 : (⟨S65536x16, .f32⟩ : BufTy).Contents (Elt Ideal)) (x1 : (⟨S2x1048576, .i32⟩ : BufTy).Contents (Elt Ideal)) (x2 : (⟨S1048576, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v95 (F := Ideal) x0 x1 x2 x3 x4 x5 x6
      = convLayer (K := 64) (convLayer (K := 16) x0 x3 x4 x1 x2) x5 x6 x1 x2 := by
  have h := BiasRelu.biasRelu_eq_host (A := 65536) (M := 64) (val_main_v91 (F := Ideal) x0 x1 x2 x3 x4 x5) x6
    Cert.KernelIdeal.Facts₀.shapeCasts_S64_S1x64 bcast_S64_S1x64_1 bcast_S1x64_S65536x64_0_1 bcast_S_S65536x64
  refine Eq.trans ?_ (h.symm.trans ?_)
  · rfl
  · rw [agg2_eq, feat2_eq, layer1_eq, src_eq', dst_eq', coef_eq']
    rfl

/-! ## The head -/

theorem head_eq (x0 : (⟨S65536x16, .f32⟩ : BufTy).Contents (Elt Ideal)) (x1 : (⟨S2x1048576, .i32⟩ : BufTy).Contents (Elt Ideal)) (x2 : (⟨S1048576, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x2, .f32⟩ : BufTy).Contents (Elt Ideal)) :
    val_main_v96 (F := Ideal) x0 x1 x2 x3 x4 x5 x6 x7
      = RowProduct.prod (A := 65536) (K := 64) (M := 2) (val_main_v95 (F := Ideal) x0 x1 x2 x3 x4 x5 x6) x7 :=
  RowProduct.host_eq none _ _ x7

/-- The reference's result is the two layers and the head of its arguments. -/
theorem out_eq (x0 : (⟨S65536x16, .f32⟩ : BufTy).Contents (Elt Ideal)) (x1 : (⟨S2x1048576, .i32⟩ : BufTy).Contents (Elt Ideal)) (x2 : (⟨S1048576, .f32⟩ : BufTy).Contents (Elt Ideal)) (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x2, .f32⟩ : BufTy).Contents (Elt Ideal)) (x8 : (⟨S2, .f32⟩ : BufTy).Contents (Elt Ideal)) :
    val_main_v99 (F := Ideal) x0 x1 x2 x3 x4 x5 x6 x7 x8 = gcnOut x0 x1 x2 x3 x4 x5 x6 x7 x8 := by
  have h := BiasRows.biasRows_eq_host (A := 65536) (M := 2) (val_main_v96 (F := Ideal) x0 x1 x2 x3 x4 x5 x6 x7) x8
    Cert.KernelIdeal.Facts₀.shapeCasts_S2_S1x2 bcast_S2_S1x2_1 bcast_S1x2_S65536x2_0_1
  refine Eq.trans ?_ (h.symm.trans ?_)
  · rfl
  · rw [head_eq, layer2_eq]
    rfl

end Cert.ReferenceIdeal.Hand

end
-- ==== Proof.lean ====
/-
  The claims of this certificate. The kernel and its reference both compute two graph-convolution layers with the
  rectifier and a linear head on the node features: X·W, aggregated along the edges with the symmetric normalisation, plus
  a bias row, maximum with zero, twice; then a last product plus a bias. The kernel does each product and each bias step
  in a row-tiled region (eight blocks of 8192 rows) and the graph side on the host; the reference does everything on the
  host and recomputes the edge coefficients for the second layer. Over the extended reals a region's output array is the
  whole-array product, or bias result, of the arrays it is entered with, and the host's `dot_general` and broadcast-add are
  the same functions, so both results are one function of the nine arguments. No finiteness is used: every step is the
  same sum or the same operation on both sides.
-/
import proofs.«119593_j82308753260856_1_alg».proof.Defs
import proofs.«119593_j82308753260856_1_alg».proof.Proof.Gen.Kernel
import proofs.«119593_j82308753260856_1_alg».proof.Proof.Gen.Kernel.Skeleton
import proofs.«119593_j82308753260856_1_alg».proof.Proof.Gen.Kernel.Launch
import proofs.«119593_j82308753260856_1_alg».proof.Proof.Gen.Kernel.Points
import proofs.«119593_j82308753260856_1_alg».proof.Proof.Gen.Kernel.Frame
import proofs.«119593_j82308753260856_1_alg».proof.Proof.Gen.KernelIdeal
import proofs.«119593_j82308753260856_1_alg».proof.Proof.Gen.KernelIdeal.Skeleton
import proofs.«119593_j82308753260856_1_alg».proof.Proof.Gen.KernelIdeal.Launch
import proofs.«119593_j82308753260856_1_alg».proof.Proof.Gen.KernelIdeal.Points
import proofs.«119593_j82308753260856_1_alg».proof.Proof.Gen.KernelIdeal.Frame
import proofs.«119593_j82308753260856_1_alg».proof.Proof.Gen.ReferenceIdeal
import proofs.«119593_j82308753260856_1_alg».proof.Proof.Gen.Pre_finite_inputs
import proofs.«119593_j82308753260856_1_alg».proof.Proof.Gen.ReferenceIdeal.Run
import proofs.«119593_j82308753260856_1_alg».proof.Proof.Gen.ReferenceIdeal.Read
import proofs.«119593_j82308753260856_1_alg».proof.Proof.KernelValue
import proofs.«119593_j82308753260856_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments both idealized programs end with the two layers and the head of
    those arguments in their result buffers. -/
theorem algebraic : Cert.algebraic_KernelIdeal_ReferenceIdeal := by
  intro m ρ m' ρ' _ hagree
  refine ⟨fun c => Cert.KernelIdeal.Hand.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, Cert.ReferenceIdeal.Hand.out_eq]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
